-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel

variable [Facts]

def fn {F : FTy → Type} [FloatOps F] (main_arg0 : FVec F S2x12x2048x64 .f32) (main_arg1 : FVec F S2x12x2048x64 .f32) (main_arg2 : FVec F S2x12x2048x64 .f32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  main_v13
-- ==== Kernel.lean ====
abbrev S2x12x2048x64 : Shape := ⟨4, ![2, 12, 2048, 64]⟩
abbrev S24x2048x64 : Shape := ⟨3, ![24, 2048, 64]⟩
abbrev S1x2048x64 : Shape := ⟨3, ![1, 2048, 64]⟩
abbrev S1x1024x64 : Shape := ⟨3, ![1, 1024, 64]⟩
abbrev S1x2048x1 : Shape := ⟨3, ![1, 2048, 1]⟩
abbrev S1x2048x1024 : Shape := ⟨3, ![1, 2048, 1024]⟩
abbrev S1x2048 : Shape := ⟨2, ![1, 2048]⟩

abbrev nBuf : Space → Nat
  | .hbm => 8
  | .vmem => 11
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S24x2048x64, .f32⟩
  | .hbm, ⟨4, _⟩ => ⟨S24x2048x64, .f32⟩
  | .hbm, ⟨5, _⟩ => ⟨S24x2048x64, .f32⟩
  | .hbm, ⟨6, _⟩ => ⟨S24x2048x64, .f32⟩
  | .hbm, ⟨7, _⟩ => ⟨S2x12x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x2048x64, .f32⟩
  | .local _ .vmem, ⟨7, _⟩ => ⟨S1x2048x64, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x64, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![24, 1, 2], ![false, false, false]⟩

def k0_cond2 (i : grid0.Coords) : BitVec 1 :=
  let arg2 : BitVec 32 := BitVec.ofNat 32 (i 2).val
  let c1_i32 : BitVec 32 := 1#32
  let v44 : BitVec 1 := Scalar.cmpi .eq arg2 c1_i32
  let v45 : BitVec 32 := Scalar.extui v44
  let c0_i32_31 : BitVec 32 := 0#32
  let v46 : BitVec 1 := Scalar.cmpi .ne v45 c0_i32_31
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x12x2048x64_S24x2048x64 : S2x12x2048x64.ShapeCasts S24x2048x64
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  reduces_S1x2048x1024_S1x2048 : S1x2048x1024.Reduces [2] S1x2048
  shapeCasts_S1x2048_S1x2048x1 : S1x2048.ShapeCasts S1x2048x1
  broadcasts_S1x2048x1_S1x2048x1024 : S1x2048x1.Broadcasts S1x2048x1024
  broadcasts_S1x2048x1_S1x2048x64 : S1x2048x1.Broadcasts S1x2048x64
  shapeCasts_S24x2048x64_S2x12x2048x64 : S24x2048x64.ShapeCasts S2x12x2048x64
  dot_S1x2048x64_S1x1024x64_S1x2048x1024_2_2_1_1_0_0_wf : DotDims.WF S1x2048x64 S1x1024x64 S1x2048x1024 [2] [2] [1] [1] [0] [0]
  dot_S1x2048x1024_S1x1024x64_S1x2048x64_2_1_1_2_0_0_wf : DotDims.WF S1x2048x1024 S1x1024x64 S1x2048x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S24x2048x64.size a
  hwx0_0 : ∀ i : grid0.Coords, EltTy.bits .f32 = 32 ∨ (Rect.block (s := S24x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S24x2048x64.size a
  hwx0_1 : ∀ i : grid0.Coords, EltTy.bits .f32 = 32 ∨ (Rect.block (s := S24x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S24x2048x64.size a
  hwx0_2 : ∀ i : grid0.Coords, EltTy.bits .f32 = 32 ∨ (Rect.block (s := S24x2048x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S24x2048x64.size a
  hwx0_3 : ∀ i : grid0.Coords, EltTy.bits .f32 = 32 ∨ (Rect.block (s := S24x2048x64) S1x2048x64.size (cc0_transform_3 i) (hinb0_3 i)).WholeWords (EltTy.packing .f32)

variable [Facts₀]

def dot_S1x2048x64_S1x1024x64_S1x2048x1024_2_2_1_1_0_0 : DotDims S1x2048x64 S1x1024x64 S1x2048x1024 where
  lhsContracting := [2]
  rhsContracting := [2]
  lhsNonContracting := [1]
  rhsNonContracting := [1]
  lhsBatch := [0]
  rhsBatch := [0]
  wf := dot_S1x2048x64_S1x1024x64_S1x2048x1024_2_2_1_1_0_0_wf
def dot_S1x2048x1024_S1x1024x64_S1x2048x64_2_1_1_2_0_0 : DotDims S1x2048x1024 S1x1024x64 S1x2048x64 where
  lhsContracting := [2]
  rhsContracting := [1]
  lhsNonContracting := [1]
  rhsNonContracting := [2]
  lhsBatch := [0]
  rhsBatch := [0]
  wf := dot_S1x2048x1024_S1x1024x64_S1x2048x64_2_1_1_2_0_0_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x12x2048x2048, .f32⟩
  | .hbm, ⟨4, _⟩ => ⟨S_, .f32⟩
  | .hbm, ⟨5, _⟩ => ⟨S2x12x2048x2048, .f32⟩
  | .hbm, ⟨6, _⟩ => ⟨S2x12x2048x2048, .f32⟩
  | .hbm, ⟨7, _⟩ => ⟨S_, .f32⟩
  | .hbm, ⟨8, _⟩ => ⟨S2x12x2048, .f32⟩
  | .hbm, ⟨9, _⟩ => ⟨S_, .f32⟩
  | .hbm, ⟨10, _⟩ => ⟨S2x12x2048, .f32⟩
  | .hbm, ⟨11, _⟩ => ⟨S2x12x2048, .f32⟩
  | .hbm, ⟨12, _⟩ => ⟨S2x12x2048x1, .f32⟩
  | .hbm, ⟨13, _⟩ => ⟨S2x12x2048x2048, .f32⟩
  | .hbm, ⟨14, _⟩ => ⟨S2x12x2048x2048, .f32⟩
  | .hbm, ⟨15, _⟩ => ⟨S2x12x2048x2048, .f32⟩
  | .hbm, ⟨16, _⟩ => ⟨S_, .f32⟩
  | .hbm, ⟨17, _⟩ => ⟨S2x12x2048, .f32⟩
  | .hbm, ⟨18, _⟩ => ⟨S2x12x2048x1, .f32⟩
  | .hbm, ⟨19, _⟩ => ⟨S2x12x2048x2048, .f32⟩
  | .hbm, ⟨20, _⟩ => ⟨S2x12x2048x2048, .f32⟩
  | .hbm, ⟨21, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.KernelSteps.lean ====
/-
  What one step of the online softmax leaves behind, as values. The body keeps three running quantities per query row
  between its two key blocks: the running maximum m, the running normaliser l and the running numerator acc.
  At the first key block it first fills them with -∞, 0 and 0 and then updates them; at the second it updates what the
  first left and writes acc / l to the output block. Each lemma reads what a step leaves in one of these as the
  body's arithmetic applied to the query block, the key block, the value block and the quantities the step found.
-/
import proofs.«163254_j31164282700439_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Steps

open Cert.KernelIdeal Cert.KernelIdeal.Gen

variable {F : FTy → Type} [FloatOps F]

theorem hz3 : (![0, 0, 0] : Fin 3 → Nat) = fun _ => 0 := funext fun a => by fin_cases a <;> rfl

/-- The new running maximum, from the maximum found before (mprev). -/
abbrev newMax (x0 : Vec F S1x2048x64 .f32) (x1 : Vec F S1x1024x64 .f32) (mprev : Vec F S1x2048x1 .f32) : Vec F S1x2048x1 .f32 :=
  k0_pay2 (k0_pay9 x0 x1 mprev)
/-- The new normaliser, from the maximum and normaliser found before. -/
abbrev newNorm (x0 : Vec F S1x2048x64 .f32) (x1 : Vec F S1x1024x64 .f32) (mprev lprev : Vec F S1x2048x1 .f32) : Vec F S1x2048x1 .f32 :=
  k0_pay12 x0 x1 mprev lprev
/-- The new numerator, from the maximum and numerator found before. -/
abbrev newAcc (x0 : Vec F S1x2048x64 .f32) (x1 x2 : Vec F S1x1024x64 .f32) (mprev : Vec F S1x2048x1 .f32) (accprev : Vec F S1x2048x64 .f32) : Vec F S1x2048x64 .f32 :=
  k0_pay1 (k0_pay7 x2) (k0_pay10 x0 x1 mprev) (k0_pay11 x0 x1 mprev) accprev

/-- First key block: the maximum it leaves, over the -∞ fill. -/
theorem first_max (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond0_0 i) (hc1 : ¬cond0_1 i)
    (x0 : Vec F S1x2048x64 .f32) (x1 : Vec F S1x1024x64 .f32) (x2 : Vec F S1x1024x64 .f32) :
    sout0_A_0 c i arg3 harg3 arg4 harg4 arg5 harg5 arg6 harg6 arg7 harg7 arg8 harg8 arg9 harg9 hc0 hc1 x0 x1 x2 = newMax x0 x1 k0_pay4 := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x2048x1) hz3]
  simp only [View.readCov_unit_zero (S := S1x2048x1) _ hz3, View.readCov_unit_zero (S := S1x2048x64) _ hz3,
    View.readAt_eq_ld, harg3.read_unread, harg4.read_unread, harg5.read_unread,
    View.ld_unit_zero (S := S1x2048x64) hz3, View.ld_unit_zero (S := S1x1024x64) hz3, View.ld_unit_zero (S := S1x2048x1) hz3]

/-- First key block: the normaliser it leaves, over the -∞ and 0 fills. -/
theorem first_norm (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond0_0 i) (hc1 : ¬cond0_1 i)
    (x0 : Vec F S1x2048x64 .f32) (x1 : Vec F S1x1024x64 .f32) (x2 : Vec F S1x1024x64 .f32) :
    sout0_A_1 c i arg3 harg3 arg4 harg4 arg5 harg5 arg6 harg6 arg7 harg7 arg8 harg8 arg9 harg9 hc0 hc1 x0 x1 x2 = newNorm x0 x1 k0_pay4 k0_pay5 := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x2048x1) hz3]
  simp only [View.readCov_unit_zero (S := S1x2048x1) _ hz3, View.readCov_unit_zero (S := S1x2048x64) _ hz3,
    View.readAt_eq_ld, harg3.read_unread, harg4.read_unread, harg5.read_unread,
    View.ld_unit_zero (S := S1x2048x64) hz3, View.ld_unit_zero (S := S1x1024x64) hz3, View.ld_unit_zero (S := S1x2048x1) hz3]

/-- First key block: the numerator it leaves, over the -∞ and 0 fills. -/
theorem first_acc (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : cond0_0 i) (hc1 : ¬cond0_1 i)
    (x0 : Vec F S1x2048x64 .f32) (x1 : Vec F S1x1024x64 .f32) (x2 : Vec F S1x1024x64 .f32) :
    sout0_A_2 c i arg3 harg3 arg4 harg4 arg5 harg5 arg6 harg6 arg7 harg7 arg8 harg8 arg9 harg9 hc0 hc1 x0 x1 x2 = newAcc x0 x1 x2 k0_pay4 k0_pay6 := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x2048x64) hz3]
  simp only [View.readCov_unit_zero (S := S1x2048x1) _ hz3, View.readCov_unit_zero (S := S1x2048x64) _ hz3,
    View.readAt_eq_ld, harg3.read_unread, harg4.read_unread, harg5.read_unread,
    View.ld_unit_zero (S := S1x2048x64) hz3, View.ld_unit_zero (S := S1x1024x64) hz3, View.ld_unit_zero (S := S1x2048x1) hz3]

/-- Second key block: the maximum it leaves, over what it found. -/
theorem second_max (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond0_0 i) (hc1 : cond0_1 i)
    (x0 : Vec F S1x2048x64 .f32) (x1 : Vec F S1x1024x64 .f32) (x2 : Vec F S1x1024x64 .f32) (xs0 : Vec F S1x2048x1 .f32) (xs1 : Vec F S1x2048x1 .f32) (xs2 : Vec F S1x2048x64 .f32) :
    sout0_B_0 c i arg3 harg3 arg4 harg4 arg5 harg5 arg6 harg6 arg7 harg7 arg8 harg8 arg9 harg9 hc0 hc1 x0 x1 x2 xs0 xs1 xs2 = newMax x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1x2048x1) hz3]
  simp only [View.readCov_unit_zero (S := S1x2048x1) _ hz3, View.readCov_unit_zero (S := S1x2048x64) _ hz3,
    View.readAt_eq_ld, harg3.read_unread, harg4.read_unread, harg5.read_unread, harg7.read_unread, harg8.read_unread, harg9.read_unread,
    View.ld_unit_zero (S := S1x2048x64) hz3, View.ld_unit_zero (S := S1x1024x64) hz3, View.ld_unit_zero (S := S1x2048x1) hz3]

/-- Second key block: the normaliser it leaves. -/
theorem second_norm (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond0_0 i) (hc1 : cond0_1 i)
    (x0 : Vec F S1x2048x64 .f32) (x1 : Vec F S1x1024x64 .f32) (x2 : Vec F S1x1024x64 .f32) (xs0 : Vec F S1x2048x1 .f32) (xs1 : Vec F S1x2048x1 .f32) (xs2 : Vec F S1x2048x64 .f32) :
    sout0_B_1 c i arg3 harg3 arg4 harg4 arg5 harg5 arg6 harg6 arg7 harg7 arg8 harg8 arg9 harg9 hc0 hc1 x0 x1 x2 xs0 xs1 xs2 = newNorm x0 x1 xs0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1x2048x1) hz3]
  simp only [View.readCov_unit_zero (S := S1x2048x1) _ hz3, View.readCov_unit_zero (S := S1x2048x64) _ hz3,
    View.readAt_eq_ld, harg3.read_unread, harg4.read_unread, harg5.read_unread, harg7.read_unread, harg8.read_unread, harg9.read_unread,
    View.ld_unit_zero (S := S1x2048x64) hz3, View.ld_unit_zero (S := S1x1024x64) hz3, View.ld_unit_zero (S := S1x2048x1) hz3]

/-- Second key block: the numerator it leaves. -/
theorem second_acc (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond0_0 i) (hc1 : cond0_1 i)
    (x0 : Vec F S1x2048x64 .f32) (x1 : Vec F S1x1024x64 .f32) (x2 : Vec F S1x1024x64 .f32) (xs0 : Vec F S1x2048x1 .f32) (xs1 : Vec F S1x2048x1 .f32) (xs2 : Vec F S1x2048x64 .f32) :
    sout0_B_2 c i arg3 harg3 arg4 harg4 arg5 harg5 arg6 harg6 arg7 harg7 arg8 harg8 arg9 harg9 hc0 hc1 x0 x1 x2 xs0 xs1 xs2 = newAcc x0 x1 x2 xs0 xs2 := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1x2048x64) hz3]
  simp only [View.readCov_unit_zero (S := S1x2048x1) _ hz3, View.readCov_unit_zero (S := S1x2048x64) _ hz3,
    View.readAt_eq_ld, harg3.read_unread, harg4.read_unread, harg5.read_unread, harg7.read_unread, harg8.read_unread, harg9.read_unread,
    View.ld_unit_zero (S := S1x2048x64) hz3, View.ld_unit_zero (S := S1x1024x64) hz3, View.ld_unit_zero (S := S1x2048x1) hz3]

/-- Second key block: the output block, the new numerator divided row by row by the new normaliser. -/
theorem second_out (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x2048x64 .f32) (harg9 : arg9.IsWhole) (hc0 : ¬cond0_0 i) (hc1 : cond0_1 i)
    (x0 : Vec F S1x2048x64 .f32) (x1 : Vec F S1x1024x64 .f32) (x2 : Vec F S1x1024x64 .f32) (xs0 : Vec F S1x2048x1 .f32) (xs1 : Vec F S1x2048x1 .f32) (xs2 : Vec F S1x2048x64 .f32) :
    out0_B_3 c i arg3 harg3 arg4 harg4 arg5 harg5 arg6 harg6 arg7 harg7 arg8 harg8 arg9 harg9 hc0 hc1 x0 x1 x2 xs0 xs1 xs2 = k0_pay3 (newAcc x0 x1 x2 xs0 xs2) (newNorm x0 x1 xs0 xs1) := by
  unfold out0_B_3
  rw [View.read_writes_eq_canon _ _ _ (cover0_B_3 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1x2048x64) hz3]
  simp only [View.readCov_unit_zero (S := S1x2048x1) _ hz3, View.readCov_unit_zero (S := S1x2048x64) _ hz3,
    View.readAt_eq_ld, harg3.read_unread, harg4.read_unread, harg5.read_unread, harg7.read_unread, harg8.read_unread, harg9.read_unread,
    View.ld_unit_zero (S := S1x2048x64) hz3, View.ld_unit_zero (S := S1x1024x64) hz3, View.ld_unit_zero (S := S1x2048x1) hz3]

end Cert.KernelIdeal.Steps

end
-- ==== Proof.Softmax.lean ====
/-
  Attention over one head, one query row, as mathematics on the extended reals. A row has 2048 scores s k (one per key)
  and, for a fixed output column, 2048 values v k. Two ways to form the softmax-weighted sum of the values:

  * one pass: M the maximum of the scores, E k = exp (s k - M), L the sum of the E k, the result the sum over k of
    (E k / L) · v k;
  * two blocks of 1024 keys with a running maximum m, a running normaliser l and a running numerator acc, each
    rescaled by exp (m_before - m_after) when the maximum moves, starting from m = -∞, l = 0, acc = 0, the result acc / l.

  Also the two ways to scale a score: each query entry scaled before the dot product, or the dot product scaled after.
  This module only states these; it imports no program.
-/
import Idealize.ShloMosaic.PureOps.Ideal

noncomputable section

namespace Cert.Attention

open Idealize.ShloMosaic

/-- Key k of the first block of 1024 keys, as a key of the row. -/
def lo (k : Fin 1024) : Fin 2048 := ⟨k.val, by have := k.isLt; omega⟩
/-- Key k of the second block. -/
def hi (k : Fin 1024) : Fin 2048 := ⟨1024 + k.val, by have := k.isLt; omega⟩

/-- The maximum of finitely many extended reals, from -∞. -/
def maxOver {n : ℕ} (f : Fin n → EReal) : EReal := (Finset.univ : Finset (Fin n)).fold max ⊥ f

/-! ### One pass -/

/-- The row's maximum (taken once more against -∞, as the reference does). -/
def rowMax (s : Fin 2048 → EReal) : EReal := max ⊥ (maxOver s)
/-- The unnormalised weight of key k. -/
def expw (s : Fin 2048 → EReal) (k : Fin 2048) : EReal := Ideal.exp (s k - rowMax s)
/-- The normaliser: the sum of the unnormalised weights, from 0. -/
def norm (s : Fin 2048 → EReal) : EReal := 0 + ∑ k : Fin 2048, expw s k
/-- The one-pass result. -/
def onePass (s v : Fin 2048 → EReal) : EReal := ∑ k : Fin 2048, Ideal.div (expw s k) (norm s) * v k

/-! ### Two blocks -/

/-- After the first block: the running maximum, from -∞. -/
def m0 (s : Fin 2048 → EReal) : EReal := max ⊥ (maxOver fun k => s (lo k))
/-- The first block's rescaling factor exp (-∞ - m0). -/
def a0 (s : Fin 2048 → EReal) : EReal := Ideal.exp (⊥ - m0 s)
/-- The first block's weights. -/
def p0 (s : Fin 2048 → EReal) (k : Fin 1024) : EReal := Ideal.exp (s (lo k) - m0 s)
/-- The normaliser after the first block. -/
def l0 (s : Fin 2048 → EReal) : EReal := a0 s * 0 + ∑ k : Fin 1024, p0 s k
/-- The numerator after the first block. -/
def acc0 (s v : Fin 2048 → EReal) : EReal := a0 s * 0 + ∑ k : Fin 1024, p0 s k * v (lo k)
/-- After the second block: the running maximum. -/
def m1 (s : Fin 2048 → EReal) : EReal := max (m0 s) (maxOver fun k => s (hi k))
/-- The second block's rescaling factor exp (m0 - m1). -/
def a1 (s : Fin 2048 → EReal) : EReal := Ideal.exp (m0 s - m1 s)
/-- The second block's weights. -/
def p1 (s : Fin 2048 → EReal) (k : Fin 1024) : EReal := Ideal.exp (s (hi k) - m1 s)
/-- The normaliser after the second block. -/
def l1 (s : Fin 2048 → EReal) : EReal := a1 s * l0 s + ∑ k : Fin 1024, p1 s k
/-- The numerator after the second block. -/
def acc1 (s v : Fin 2048 → EReal) : EReal := a1 s * acc0 s v + ∑ k : Fin 1024, p1 s k * v (hi k)
/-- The two-block result. -/
def twoBlock (s v : Fin 2048 → EReal) : EReal := Ideal.div (acc1 s v) (l1 s)

/-! ### The score, scaled before or after -/

/-- Each query entry scaled by c, then the dot product with the key. -/
def scoreBefore (q kk : Fin 64 → EReal) (c : EReal) : EReal := ∑ d : Fin 64, (q d * c) * kk d
/-- The dot product, then scaled by c. -/
def scoreAfter (q kk : Fin 64 → EReal) (c : EReal) : EReal := (∑ d : Fin 64, q d * kk d) * c

end Cert.Attention

end
-- ==== Proof.KernelRow.lean ====
/-
  One step of the online softmax, read entry by entry on the extended reals. For the query block x0 (2048 rows of 64),
  a key block x1 and a value block x2 (1024 rows of 64 each), and the running maximum, normaliser and numerator found
  before the step: the score of row r against key k is the sum over the 64 columns of (x0 r d · c) · x1 k d; the new
  maximum of row r is the larger of the old one and the row's largest score; the weights are exp (score - new maximum);
  the old normaliser and numerator are rescaled by exp (old maximum - new maximum) and the weights, respectively the
  weighted value rows, are added. Two such steps from -∞, 0, 0, followed by numerator / normaliser, are the two-block
  form of the softmax-weighted sum.
-/
import proofs.«163254_j31164282700439_2_alg».proof.Proof.KernelSteps
import proofs.«163254_j31164282700439_2_alg».proof.Proof.Softmax
import Idealize.ShloMosaic.Lib.ValueIdx
import Idealize.ShloMosaic.PureOps.Ideal.Laws

set_option maxRecDepth 16384

noncomputable section

open Idealize.ShloMosaic Idealize.ShloMosaic.ValueIdx

namespace Cert.KernelIdeal.Row

open Cert.KernelIdeal Cert.KernelIdeal.Gen Cert.KernelIdeal.Steps Cert.Attention

/-- The word of -∞ is the bottom of the extended reals. -/
theorem negInf : Ideal.ofBits .f32 0xFF800000#32 = (⊥ : EReal) := by simp [Ideal.ofBits, Ideal.ieee]

/-- The scale every query entry is multiplied by (the word 0x3CB504F3). -/
abbrev cScale : EReal := Ideal.ofBits .f32 0x3CB504F3#32

/-! ### The operands' indices of the two matrix products -/

theorem qk_lhs0 (i : S1x2048x1024.Idx) (q : dot_S1x2048x64_S1x1024x64_S1x2048x1024_2_2_1_1_0_0.contr.Idx) :
    (dot_S1x2048x64_S1x1024x64_S1x2048x1024_2_2_1_1_0_0.lhsIdx i q 0).val = (i 0).val := by
  unfold DotDims.lhsIdx
  rw [dif_pos (show (0 : Fin S1x2048x64.rank) ∈ dot_S1x2048x64_S1x1024x64_S1x2048x1024_2_2_1_1_0_0.lhsBatch by decide)]
  rfl

theorem qk_lhs1 (i : S1x2048x1024.Idx) (q : dot_S1x2048x64_S1x1024x64_S1x2048x1024_2_2_1_1_0_0.contr.Idx) :
    (dot_S1x2048x64_S1x1024x64_S1x2048x1024_2_2_1_1_0_0.lhsIdx i q 1).val = (i 1).val := by
  unfold DotDims.lhsIdx
  rw [dif_neg (show ¬(1 : Fin S1x2048x64.rank) ∈ dot_S1x2048x64_S1x1024x64_S1x2048x1024_2_2_1_1_0_0.lhsBatch by decide), dif_pos (show (1 : Fin S1x2048x64.rank) ∈ dot_S1x2048x64_S1x1024x64_S1x2048x1024_2_2_1_1_0_0.lhsNonContracting by decide)]
  rfl

theorem qk_lhs2 (i : S1x2048x1024.Idx) (q : dot_S1x2048x64_S1x1024x64_S1x2048x1024_2_2_1_1_0_0.contr.Idx) :
    (dot_S1x2048x64_S1x1024x64_S1x2048x1024_2_2_1_1_0_0.lhsIdx i q 2).val = (q ⟨0, by decide⟩).val :=
  dot_S1x2048x64_S1x1024x64_S1x2048x1024_2_2_1_1_0_0.lhsIdx_val_of_single rfl i q

theorem qk_rhs0 (i : S1x2048x1024.Idx) (q : dot_S1x2048x64_S1x1024x64_S1x2048x1024_2_2_1_1_0_0.contr.Idx) :
    (dot_S1x2048x64_S1x1024x64_S1x2048x1024_2_2_1_1_0_0.rhsIdx i q 0).val = (i 0).val := by
  unfold DotDims.rhsIdx
  rw [dif_pos (show (0 : Fin S1x1024x64.rank) ∈ dot_S1x2048x64_S1x1024x64_S1x2048x1024_2_2_1_1_0_0.rhsBatch by decide)]
  rfl

theorem qk_rhs1 (i : S1x2048x1024.Idx) (q : dot_S1x2048x64_S1x1024x64_S1x2048x1024_2_2_1_1_0_0.contr.Idx) :
    (dot_S1x2048x64_S1x1024x64_S1x2048x1024_2_2_1_1_0_0.rhsIdx i q 1).val = (i 2).val := by
  unfold DotDims.rhsIdx
  rw [dif_neg (show ¬(1 : Fin S1x1024x64.rank) ∈ dot_S1x2048x64_S1x1024x64_S1x2048x1024_2_2_1_1_0_0.rhsBatch by decide), dif_pos (show (1 : Fin S1x1024x64.rank) ∈ dot_S1x2048x64_S1x1024x64_S1x2048x1024_2_2_1_1_0_0.rhsNonContracting by decide)]
  rfl

theorem qk_rhs2 (i : S1x2048x1024.Idx) (q : dot_S1x2048x64_S1x1024x64_S1x2048x1024_2_2_1_1_0_0.contr.Idx) :
    (dot_S1x2048x64_S1x1024x64_S1x2048x1024_2_2_1_1_0_0.rhsIdx i q 2).val = (q ⟨0, by decide⟩).val :=
  dot_S1x2048x64_S1x1024x64_S1x2048x1024_2_2_1_1_0_0.rhsIdx_val_of_single rfl i q

theorem pv_lhs0 (i : S1x2048x64.Idx) (q : dot_S1x2048x1024_S1x1024x64_S1x2048x64_2_1_1_2_0_0.contr.Idx) :
    (dot_S1x2048x1024_S1x1024x64_S1x2048x64_2_1_1_2_0_0.lhsIdx i q 0).val = (i 0).val := by
  unfold DotDims.lhsIdx
  rw [dif_pos (show (0 : Fin S1x2048x1024.rank) ∈ dot_S1x2048x1024_S1x1024x64_S1x2048x64_2_1_1_2_0_0.lhsBatch by decide)]
  rfl

theorem pv_lhs1 (i : S1x2048x64.Idx) (q : dot_S1x2048x1024_S1x1024x64_S1x2048x64_2_1_1_2_0_0.contr.Idx) :
    (dot_S1x2048x1024_S1x1024x64_S1x2048x64_2_1_1_2_0_0.lhsIdx i q 1).val = (i 1).val := by
  unfold DotDims.lhsIdx
  rw [dif_neg (show ¬(1 : Fin S1x2048x1024.rank) ∈ dot_S1x2048x1024_S1x1024x64_S1x2048x64_2_1_1_2_0_0.lhsBatch by decide), dif_pos (show (1 : Fin S1x2048x1024.rank) ∈ dot_S1x2048x1024_S1x1024x64_S1x2048x64_2_1_1_2_0_0.lhsNonContracting by decide)]
  rfl

theorem pv_lhs2 (i : S1x2048x64.Idx) (q : dot_S1x2048x1024_S1x1024x64_S1x2048x64_2_1_1_2_0_0.contr.Idx) :
    (dot_S1x2048x1024_S1x1024x64_S1x2048x64_2_1_1_2_0_0.lhsIdx i q 2).val = (q ⟨0, by decide⟩).val :=
  dot_S1x2048x1024_S1x1024x64_S1x2048x64_2_1_1_2_0_0.lhsIdx_val_of_single rfl i q

theorem pv_rhs0 (i : S1x2048x64.Idx) (q : dot_S1x2048x1024_S1x1024x64_S1x2048x64_2_1_1_2_0_0.contr.Idx) :
    (dot_S1x2048x1024_S1x1024x64_S1x2048x64_2_1_1_2_0_0.rhsIdx i q 0).val = (i 0).val := by
  unfold DotDims.rhsIdx
  rw [dif_pos (show (0 : Fin S1x1024x64.rank) ∈ dot_S1x2048x1024_S1x1024x64_S1x2048x64_2_1_1_2_0_0.rhsBatch by decide)]
  rfl

theorem pv_rhs1 (i : S1x2048x64.Idx) (q : dot_S1x2048x1024_S1x1024x64_S1x2048x64_2_1_1_2_0_0.contr.Idx) :
    (dot_S1x2048x1024_S1x1024x64_S1x2048x64_2_1_1_2_0_0.rhsIdx i q 1).val = (q ⟨0, by decide⟩).val :=
  dot_S1x2048x1024_S1x1024x64_S1x2048x64_2_1_1_2_0_0.rhsIdx_val_of_single rfl i q

theorem pv_rhs2 (i : S1x2048x64.Idx) (q : dot_S1x2048x1024_S1x1024x64_S1x2048x64_2_1_1_2_0_0.contr.Idx) :
    (dot_S1x2048x1024_S1x1024x64_S1x2048x64_2_1_1_2_0_0.rhsIdx i q 2).val = (i 2).val := by
  unfold DotDims.rhsIdx
  rw [dif_neg (show ¬(2 : Fin S1x1024x64.rank) ∈ dot_S1x2048x1024_S1x1024x64_S1x2048x64_2_1_1_2_0_0.rhsBatch by decide), dif_pos (show (2 : Fin S1x1024x64.rank) ∈ dot_S1x2048x1024_S1x1024x64_S1x2048x64_2_1_1_2_0_0.rhsNonContracting by decide)]
  rfl

theorem qk_lhs (r : Fin 2048) (k : Fin 1024) (d : Fin 64) :
    dot_S1x2048x64_S1x1024x64_S1x2048x1024_2_2_1_1_0_0.lhsIdx (ix3 (0 : Fin 1) r k) ((contrEquiv1 dot_S1x2048x64_S1x1024x64_S1x2048x1024_2_2_1_1_0_0 64 rfl rfl).symm d) = ix3 (0 : Fin 1) r d := by
  have hk := contrEquiv1_symm_val dot_S1x2048x64_S1x1024x64_S1x2048x1024_2_2_1_1_0_0 64 rfl rfl d
  exact funext fun a => Fin.ext (by
    match a with
    | ⟨0, _⟩ => exact qk_lhs0 _ _
    | ⟨1, _⟩ => exact qk_lhs1 _ _
    | ⟨2, _⟩ => exact (qk_lhs2 _ _).trans hk)

theorem qk_rhs (r : Fin 2048) (k : Fin 1024) (d : Fin 64) :
    dot_S1x2048x64_S1x1024x64_S1x2048x1024_2_2_1_1_0_0.rhsIdx (ix3 (0 : Fin 1) r k) ((contrEquiv1 dot_S1x2048x64_S1x1024x64_S1x2048x1024_2_2_1_1_0_0 64 rfl rfl).symm d) = ix3 (0 : Fin 1) k d := by
  have hk := contrEquiv1_symm_val dot_S1x2048x64_S1x1024x64_S1x2048x1024_2_2_1_1_0_0 64 rfl rfl d
  exact funext fun a => Fin.ext (by
    match a with
    | ⟨0, _⟩ => exact qk_rhs0 _ _
    | ⟨1, _⟩ => exact qk_rhs1 _ _
    | ⟨2, _⟩ => exact (qk_rhs2 _ _).trans hk)

theorem pv_lhs (r : Fin 2048) (d : Fin 64) (k : Fin 1024) :
    dot_S1x2048x1024_S1x1024x64_S1x2048x64_2_1_1_2_0_0.lhsIdx (ix3 (0 : Fin 1) r d) ((contrEquiv1 dot_S1x2048x1024_S1x1024x64_S1x2048x64_2_1_1_2_0_0 1024 rfl rfl).symm k) = ix3 (0 : Fin 1) r k := by
  have hk := contrEquiv1_symm_val dot_S1x2048x1024_S1x1024x64_S1x2048x64_2_1_1_2_0_0 1024 rfl rfl k
  exact funext fun a => Fin.ext (by
    match a with
    | ⟨0, _⟩ => exact pv_lhs0 _ _
    | ⟨1, _⟩ => exact pv_lhs1 _ _
    | ⟨2, _⟩ => exact (pv_lhs2 _ _).trans hk)

theorem pv_rhs (r : Fin 2048) (d : Fin 64) (k : Fin 1024) :
    dot_S1x2048x1024_S1x1024x64_S1x2048x64_2_1_1_2_0_0.rhsIdx (ix3 (0 : Fin 1) r d) ((contrEquiv1 dot_S1x2048x1024_S1x1024x64_S1x2048x64_2_1_1_2_0_0 1024 rfl rfl).symm k) = ix3 (0 : Fin 1) k d := by
  have hk := contrEquiv1_symm_val dot_S1x2048x1024_S1x1024x64_S1x2048x64_2_1_1_2_0_0 1024 rfl rfl k
  exact funext fun a => Fin.ext (by
    match a with
    | ⟨0, _⟩ => exact pv_rhs0 _ _
    | ⟨1, _⟩ => exact (pv_rhs1 _ _).trans hk
    | ⟨2, _⟩ => exact pv_rhs2 _ _)

/-! ### The score block -/

/-- The score of query row r against key k of the block: the scaled query row dotted with the key row. -/
theorem scores_at (x0 : Vec Ideal S1x2048x64 .f32) (x1 : Vec Ideal S1x1024x64 .f32) (r : Fin 2048) (k : Fin 1024) :
    k0_pay8 (F := Ideal) x0 x1 (ix3 (0 : Fin 1) r k)
      = scoreBefore (fun d => x0 (ix3 (0 : Fin 1) r d)) (fun d => x1 (ix3 (0 : Fin 1) k d)) cScale := by
  unfold k0_pay8
  refine (Ideal.matmul_constant_zero_apply dot_S1x2048x64_S1x1024x64_S1x2048x1024_2_2_1_1_0_0 none _ _ (ix3 (0 : Fin 1) r k)).trans ?_
  rw [← Equiv.sum_comp (contrEquiv1 dot_S1x2048x64_S1x1024x64_S1x2048x1024_2_2_1_1_0_0 64 rfl rfl).symm]
  unfold scoreBefore
  refine Finset.sum_congr rfl fun d _ => ?_
  rw [qk_lhs, qk_rhs]
  simp only [shapeCast_self]
  rfl

/-! ### Along the keys: a row's maximum and sum, and the one-column layout -/

/-- The key axis put back into a row's index. -/
theorem lift_keys (r : Fin 2048) (k : Fin 1024) :
    reduces_S1x2048x1024_S1x2048.lift (ix2 (0 : Fin 1) r) k = ix3 (0 : Fin 1) r k :=
  funext fun a => Fin.ext (by match a with | ⟨0, _⟩ => rfl | ⟨1, _⟩ => rfl | ⟨2, _⟩ => rfl)

/-- A row's maximum over the 1024 keys of a block, from -∞. -/
theorem rowmax_at (src : FVec Ideal S1x2048x1024 .f32) (r : Fin 2048) :
    multiReduction (F := Ideal) .maximumf [2] S1x2048 src 0xFF800000#32 reduces_S1x2048x1024_S1x2048 (.inl rfl) rfl (ix2 (0 : Fin 1) r)
      = maxOver fun k : Fin 1024 => src (ix3 (0 : Fin 1) r k) := by
  refine (Ideal.multiReduction_maximumf_single src 0xFF800000#32 reduces_S1x2048x1024_S1x2048 (.inl rfl) rfl (ix2 (0 : Fin 1) r)).trans ?_
  unfold maxOver
  rw [show FloatOps.ofBits (F := Ideal) .f32 0xFF800000#32 = (⊥ : EReal) from negInf]
  exact congrArg (fun f => (Finset.univ : Finset (Fin 1024)).fold max ⊥ f) (funext fun k => congrArg src (lift_keys r k))

/-- A row's sum over the 1024 keys of a block. -/
theorem rowsum_at (src : FVec Ideal S1x2048x1024 .f32) (r : Fin 2048) :
    multiReduction (F := Ideal) .add [2] S1x2048 src 0x00000000#32 reduces_S1x2048x1024_S1x2048 (.inl rfl) rfl (ix2 (0 : Fin 1) r)
      = ∑ k : Fin 1024, src (ix3 (0 : Fin 1) r k) := by
  refine (Ideal.multiReduction_add_single src 0x00000000#32 reduces_S1x2048x1024_S1x2048 (.inl rfl) rfl (ix2 (0 : Fin 1) r)).trans ?_
  exact Finset.sum_congr rfl fun k _ => congrArg src (lift_keys r k)

/-- A per-row quantity stored as a column: entry (0, r, 0) of the column is entry (0, r) of the row vector. -/
theorem column_at {α : Type} (v : S1x2048.Idx → α) (r : Fin 2048) :
    shapeCast S1x2048x1 v shapeCasts_S1x2048_S1x2048x1 (ix3 (0 : Fin 1) r (0 : Fin 1)) = v (ix2 (0 : Fin 1) r) := by
  refine shapeCast_apply v _ _ _ ?_
  rw [Shape.rowMajor_val_two, Shape.rowMajor_val_three]
  show (0 : Nat) * 2048 + r.val = ((0 : Nat) * 2048 + r.val) * 1 + 0
  omega

/-- A column spread over the 1024 keys: every key of row r sees the column's entry (0, r, 0). -/
theorem spread_keys {α : Type} (v : S1x2048x1.Idx → α) (r : Fin 2048) (k : Fin 1024) :
    broadcastTo S1x2048x1024 v broadcasts_S1x2048x1_S1x2048x1024 (ix3 (0 : Fin 1) r k) = v (ix3 (0 : Fin 1) r (0 : Fin 1)) := by
  refine broadcastTo_apply v _ _ _ fun a => ?_
  match a with
  | ⟨0, _⟩ => rfl
  | ⟨1, _⟩ => rfl
  | ⟨2, _⟩ => rfl

/-- A column spread over the 64 output columns. -/
theorem spread_cols {α : Type} (v : S1x2048x1.Idx → α) (r : Fin 2048) (d : Fin 64) :
    broadcastTo S1x2048x64 v broadcasts_S1x2048x1_S1x2048x64 (ix3 (0 : Fin 1) r d) = v (ix3 (0 : Fin 1) r (0 : Fin 1)) := by
  refine broadcastTo_apply v _ _ _ fun a => ?_
  match a with
  | ⟨0, _⟩ => rfl
  | ⟨1, _⟩ => rfl
  | ⟨2, _⟩ => rfl

/-! ### One step, entry by entry -/

/-- The fills before the first key block: -∞ for the maximum, 0 for the normaliser and the numerator. -/
theorem fill_max (i : S1x2048x1.Idx) : k0_pay4 (F := Ideal) i = (⊥ : EReal) := by
  unfold k0_pay4
  simp only [shapeCast_self]
  exact negInf
theorem fill_norm (i : S1x2048x1.Idx) : k0_pay5 (F := Ideal) i = (0 : EReal) := by
  unfold k0_pay5
  simp only [shapeCast_self]
  exact Ideal.ofBits_zero_f32
theorem fill_acc (i : S1x2048x64.Idx) : k0_pay6 (F := Ideal) i = (0 : EReal) := by
  unfold k0_pay6
  simp only [shapeCast_self]
  exact Ideal.ofBits_zero_f32

/-- The stored maximum is the computed one. -/
theorem stored_max {F : FTy → Type} [FloatOps F] (v : FVec F S1x2048x1 .f32) : k0_pay2 v = v := shapeCast_self _ _

/-- Row r's new maximum: the larger of the one found and the row's largest score of the block. -/
theorem max_at (x0 : Vec Ideal S1x2048x64 .f32) (x1 : Vec Ideal S1x1024x64 .f32) (mp : Vec Ideal S1x2048x1 .f32) (r : Fin 2048) :
    k0_pay9 (F := Ideal) x0 x1 mp (ix3 (0 : Fin 1) r (0 : Fin 1))
      = max (mp (ix3 (0 : Fin 1) r (0 : Fin 1))) (maxOver fun k : Fin 1024 => k0_pay8 (F := Ideal) x0 x1 (ix3 (0 : Fin 1) r k)) := by
  unfold k0_pay9
  exact congrArg (max (mp (ix3 (0 : Fin 1) r (0 : Fin 1)))) ((column_at _ r).trans (rowmax_at _ r))

/-- Row r's rescaling factor: exp (maximum found - new maximum). -/
theorem rescale_at (x0 : Vec Ideal S1x2048x64 .f32) (x1 : Vec Ideal S1x1024x64 .f32) (mp : Vec Ideal S1x2048x1 .f32) (r : Fin 2048) :
    k0_pay10 (F := Ideal) x0 x1 mp (ix3 (0 : Fin 1) r (0 : Fin 1))
      = Ideal.exp (mp (ix3 (0 : Fin 1) r (0 : Fin 1)) - k0_pay9 (F := Ideal) x0 x1 mp (ix3 (0 : Fin 1) r (0 : Fin 1))) := rfl

/-- The weight of key k in row r: exp (score - new maximum). -/
theorem weight_at (x0 : Vec Ideal S1x2048x64 .f32) (x1 : Vec Ideal S1x1024x64 .f32) (mp : Vec Ideal S1x2048x1 .f32) (r : Fin 2048) (k : Fin 1024) :
    k0_pay11 (F := Ideal) x0 x1 mp (ix3 (0 : Fin 1) r k)
      = Ideal.exp (k0_pay8 (F := Ideal) x0 x1 (ix3 (0 : Fin 1) r k) - k0_pay9 (F := Ideal) x0 x1 mp (ix3 (0 : Fin 1) r (0 : Fin 1))) := by
  unfold k0_pay11
  exact congrArg (fun z => Ideal.exp (k0_pay8 (F := Ideal) x0 x1 (ix3 (0 : Fin 1) r k) - z)) (spread_keys _ r k)

/-- Row r's new normaliser: the one found, rescaled, plus the block's weights. -/
theorem norm_at (x0 : Vec Ideal S1x2048x64 .f32) (x1 : Vec Ideal S1x1024x64 .f32) (mp lp : Vec Ideal S1x2048x1 .f32) (r : Fin 2048) :
    k0_pay12 (F := Ideal) x0 x1 mp lp (ix3 (0 : Fin 1) r (0 : Fin 1))
      = k0_pay10 (F := Ideal) x0 x1 mp (ix3 (0 : Fin 1) r (0 : Fin 1)) * lp (ix3 (0 : Fin 1) r (0 : Fin 1))
        + ∑ k : Fin 1024, k0_pay11 (F := Ideal) x0 x1 mp (ix3 (0 : Fin 1) r k) := by
  unfold k0_pay12
  simp only [shapeCast_self]
  exact congrArg (k0_pay10 (F := Ideal) x0 x1 mp (ix3 (0 : Fin 1) r (0 : Fin 1)) * lp (ix3 (0 : Fin 1) r (0 : Fin 1)) + ·) ((column_at _ r).trans (rowsum_at _ r))

/-- Entry (r, d) of the new numerator: the one found, rescaled, plus the block's weighted value rows. -/
theorem acc_at (x2 : Vec Ideal S1x1024x64 .f32) (a : FVec Ideal S1x2048x1 .f32) (p : FVec Ideal S1x2048x1024 .f32)
    (accp : Vec Ideal S1x2048x64 .f32) (r : Fin 2048) (d : Fin 64) :
    k0_pay1 (F := Ideal) (k0_pay7 x2) a p accp (ix3 (0 : Fin 1) r d)
      = a (ix3 (0 : Fin 1) r (0 : Fin 1)) * accp (ix3 (0 : Fin 1) r d) + ∑ k : Fin 1024, p (ix3 (0 : Fin 1) r k) * x2 (ix3 (0 : Fin 1) k d) := by
  unfold k0_pay1 k0_pay7
  simp only [shapeCast_self]
  refine congrArg₂ (· + ·) (congrArg (· * accp (ix3 (0 : Fin 1) r d)) (spread_cols a r d)) ?_
  refine (Ideal.matmul_constant_zero_apply dot_S1x2048x1024_S1x1024x64_S1x2048x64_2_1_1_2_0_0 none _ _ (ix3 (0 : Fin 1) r d)).trans ?_
  rw [← Equiv.sum_comp (contrEquiv1 dot_S1x2048x1024_S1x1024x64_S1x2048x64_2_1_1_2_0_0 1024 rfl rfl).symm]
  refine Finset.sum_congr rfl fun k _ => ?_
  rw [pv_lhs, pv_rhs]
  rfl

/-- Entry (r, d) of the output block: the numerator over row r's normaliser. -/
theorem out_at (acc : Vec Ideal S1x2048x64 .f32) (l : Vec Ideal S1x2048x1 .f32) (r : Fin 2048) (d : Fin 64) :
    k0_pay3 (F := Ideal) acc l (ix3 (0 : Fin 1) r d) = Ideal.div (acc (ix3 (0 : Fin 1) r d)) (l (ix3 (0 : Fin 1) r (0 : Fin 1))) := by
  unfold k0_pay3
  exact congrArg (Ideal.div (acc (ix3 (0 : Fin 1) r d))) (spread_cols l r d)

/-! ### Two steps from the fills are the two-block form -/

/-- With s the row's 2048 scores (the first 1024 against the first key block, the rest against the second) and v the
    2048 values of column d, the output entry (r, d) after the second step is the two-block softmax-weighted sum. The
    two steps may be handed the query rows as two blocks; only their entries matter. -/
theorem two_steps (x0A x0B : Vec Ideal S1x2048x64 .f32) (kA vA kB vB : Vec Ideal S1x1024x64 .f32) (r : Fin 2048) (d : Fin 64)
    (s v : Fin 2048 → EReal)
    (hsA : ∀ k : Fin 1024, s (lo k) = scoreBefore (fun dd => x0A (ix3 (0 : Fin 1) r dd)) (fun dd => kA (ix3 (0 : Fin 1) k dd)) cScale)
    (hsB : ∀ k : Fin 1024, s (hi k) = scoreBefore (fun dd => x0B (ix3 (0 : Fin 1) r dd)) (fun dd => kB (ix3 (0 : Fin 1) k dd)) cScale)
    (hvA : ∀ k : Fin 1024, v (lo k) = vA (ix3 (0 : Fin 1) k d)) (hvB : ∀ k : Fin 1024, v (hi k) = vB (ix3 (0 : Fin 1) k d)) :
    k0_pay3 (F := Ideal) (newAcc x0B kB vB (newMax x0A kA (k0_pay4 (F := Ideal))) (newAcc x0A kA vA (k0_pay4 (F := Ideal)) (k0_pay6 (F := Ideal))))
        (newNorm x0B kB (newMax x0A kA (k0_pay4 (F := Ideal))) (newNorm x0A kA (k0_pay4 (F := Ideal)) (k0_pay5 (F := Ideal)))) (ix3 (0 : Fin 1) r d)
      = twoBlock s v := by
  dsimp only [newMax, newNorm, newAcc]
  simp only [stored_max]
  have hSA : (fun k : Fin 1024 => k0_pay8 (F := Ideal) x0A kA (ix3 (0 : Fin 1) r k)) = fun k => s (lo k) :=
    funext fun k => (scores_at x0A kA r k).trans (hsA k).symm
  have hSB : (fun k : Fin 1024 => k0_pay8 (F := Ideal) x0B kB (ix3 (0 : Fin 1) r k)) = fun k => s (hi k) :=
    funext fun k => (scores_at x0B kB r k).trans (hsB k).symm
  have e_m0 : k0_pay9 (F := Ideal) x0A kA (k0_pay4 (F := Ideal)) (ix3 (0 : Fin 1) r (0 : Fin 1)) = m0 s := by
    rw [max_at, fill_max, hSA]; rfl
  have e_a0 : k0_pay10 (F := Ideal) x0A kA (k0_pay4 (F := Ideal)) (ix3 (0 : Fin 1) r (0 : Fin 1)) = a0 s := by
    rw [rescale_at, fill_max, e_m0]; rfl
  have e_p0 : ∀ k : Fin 1024, k0_pay11 (F := Ideal) x0A kA (k0_pay4 (F := Ideal)) (ix3 (0 : Fin 1) r k) = p0 s k := fun k => by
    rw [weight_at, e_m0, congrFun hSA k]; rfl
  have e_l0 : k0_pay12 (F := Ideal) x0A kA (k0_pay4 (F := Ideal)) (k0_pay5 (F := Ideal)) (ix3 (0 : Fin 1) r (0 : Fin 1)) = l0 s := by
    rw [norm_at, e_a0, fill_norm]
    exact congrArg (a0 s * 0 + ·) (Finset.sum_congr rfl fun k _ => e_p0 k)
  have e_acc0 : k0_pay1 (F := Ideal) (k0_pay7 vA) (k0_pay10 x0A kA (k0_pay4 (F := Ideal))) (k0_pay11 x0A kA (k0_pay4 (F := Ideal))) (k0_pay6 (F := Ideal)) (ix3 (0 : Fin 1) r d) = acc0 s v := by
    rw [acc_at, e_a0, fill_acc]
    exact congrArg (a0 s * 0 + ·) (Finset.sum_congr rfl fun k _ => by rw [e_p0 k, hvA k])
  have e_m1 : k0_pay9 (F := Ideal) x0B kB (k0_pay9 x0A kA (k0_pay4 (F := Ideal))) (ix3 (0 : Fin 1) r (0 : Fin 1)) = m1 s := by
    rw [max_at, e_m0, hSB]; rfl
  have e_a1 : k0_pay10 (F := Ideal) x0B kB (k0_pay9 x0A kA (k0_pay4 (F := Ideal))) (ix3 (0 : Fin 1) r (0 : Fin 1)) = a1 s := by
    rw [rescale_at, e_m0, e_m1]; rfl
  have e_p1 : ∀ k : Fin 1024, k0_pay11 (F := Ideal) x0B kB (k0_pay9 x0A kA (k0_pay4 (F := Ideal))) (ix3 (0 : Fin 1) r k) = p1 s k := fun k => by
    rw [weight_at, e_m1, congrFun hSB k]; rfl
  have e_l1 : k0_pay12 (F := Ideal) x0B kB (k0_pay9 x0A kA (k0_pay4 (F := Ideal))) (k0_pay12 x0A kA (k0_pay4 (F := Ideal)) (k0_pay5 (F := Ideal))) (ix3 (0 : Fin 1) r (0 : Fin 1)) = l1 s := by
    rw [norm_at, e_a1, e_l0]
    exact congrArg (a1 s * l0 s + ·) (Finset.sum_congr rfl fun k _ => e_p1 k)
  have e_acc1 : k0_pay1 (F := Ideal) (k0_pay7 vB) (k0_pay10 x0B kB (k0_pay9 x0A kA (k0_pay4 (F := Ideal)))) (k0_pay11 x0B kB (k0_pay9 x0A kA (k0_pay4 (F := Ideal))))
      (k0_pay1 (k0_pay7 vA) (k0_pay10 x0A kA (k0_pay4 (F := Ideal))) (k0_pay11 x0A kA (k0_pay4 (F := Ideal))) (k0_pay6 (F := Ideal))) (ix3 (0 : Fin 1) r d) = acc1 s v := by
    rw [acc_at, e_a1, e_acc0]
    exact congrArg (a1 s * acc0 s v + ·) (Finset.sum_congr rfl fun k _ => by rw [e_p1 k, hvB k])
  rw [out_at, e_acc1, e_l1]
  rfl

end Cert.KernelIdeal.Row

end
-- ==== Proof.KernelWhole.lean ====
/-
  From the grid's points to the whole result. The grid runs over the 24 heads and, for each, the two key blocks: point
  2g is head g's first key block and point 2g + 1 its second, after which the output block — all 2048 rows of head g —
  is written back. So every entry (g, r, d) of the [24, 2048, 64] result is written exactly once, at point 2g + 1, and is
  there the two-block softmax-weighted sum of head g's value column d under row r's scores. The head axis is the
  row-major merge of the arguments' two leading axes [2, 12], undone again after the grid.
-/
import proofs.«163254_j31164282700439_2_alg».proof.Proof.KernelRow
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.Whole

open Cert.KernelIdeal Cert.KernelIdeal.Gen Cert.KernelIdeal.Steps Cert.KernelIdeal.Row Cert.Attention

section AnyValues

variable {F : FTy → Type} [FloatOps F]
variable (m : (ℓ : Loc nD τ sig) → Buf (Elt F) ℓ) (ρ : Dev nD → PrngReg)

/-- After a head's first key block (an even point): the running maximum, normaliser and numerator, over the fills. -/
theorem after_first (c : Dev nD) (t : Fin cfg0.N) (h0 : t.val % 2 = 0) (h1 : ¬t.val % 2 = 1) :
    (outsAt0 m c t.val t.isLt).2.1 = newMax (iblk m c 0 t) (iblk m c 1 t) k0_pay4
    ∧ (outsAt0 m c t.val t.isLt).2.2.1 = newNorm (iblk m c 0 t) (iblk m c 1 t) k0_pay4 k0_pay5
    ∧ (outsAt0 m c t.val t.isLt).2.2.2 = newAcc (iblk m c 0 t) (iblk m c 1 t) (iblk m c 2 t) k0_pay4 k0_pay6 := by
  rw [outsAt0_A m c t h0 h1]
  dsimp only
  refine ⟨?_, ?_, ?_⟩
  · exact first_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  · exact first_norm c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  · exact first_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-- After a head's second key block (an odd point): the output block, over what the point before left. -/
theorem after_second (c : Dev nD) (t : Fin cfg0.N) (h0 : ¬t.val % 2 = 0) (h1 : t.val % 2 = 1) :
    (outsAt0 m c t.val t.isLt).1
      = k0_pay3 (newAcc (iblk m c 0 t) (iblk m c 1 t) (iblk m c 2 t)
            (outsAt0 m c (t.val - 1) (Nat.lt_of_le_of_lt (Nat.sub_le _ _) t.isLt)).2.1
            (outsAt0 m c (t.val - 1) (Nat.lt_of_le_of_lt (Nat.sub_le _ _) t.isLt)).2.2.2)
          (newNorm (iblk m c 0 t) (iblk m c 1 t)
            (outsAt0 m c (t.val - 1) (Nat.lt_of_le_of_lt (Nat.sub_le _ _) t.isLt)).2.1
            (outsAt0 m c (t.val - 1) (Nat.lt_of_le_of_lt (Nat.sub_le _ _) t.isLt)).2.2.1) := by
  rw [outsAt0_B m c t h0 h1]
  dsimp only
  exact second_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2

/-- The point before an odd point. -/
def prev (t : Fin cfg0.N) : Fin cfg0.N := ⟨t.val - 1, Nat.lt_of_le_of_lt (Nat.sub_le _ _) t.isLt⟩

/-- The output block after an odd point, from the two points' blocks alone. -/
theorem block_after (c : Dev nD) (t : Fin cfg0.N) (h1 : t.val % 2 = 1) :
    (outsAt0 m c t.val t.isLt).1
      = k0_pay3 (newAcc (iblk m c 0 t) (iblk m c 1 t) (iblk m c 2 t)
            (newMax (iblk m c 0 (prev t)) (iblk m c 1 (prev t)) k0_pay4)
            (newAcc (iblk m c 0 (prev t)) (iblk m c 1 (prev t)) (iblk m c 2 (prev t)) k0_pay4 k0_pay6))
          (newNorm (iblk m c 0 t) (iblk m c 1 t)
            (newMax (iblk m c 0 (prev t)) (iblk m c 1 (prev t)) k0_pay4)
            (newNorm (iblk m c 0 (prev t)) (iblk m c 1 (prev t)) k0_pay4 k0_pay5)) := by
  have hp0 : (prev t).val % 2 = 0 := by show (t.val - 1) % 2 = 0; omega
  have hp1 : ¬(prev t).val % 2 = 1 := by show ¬(t.val - 1) % 2 = 1; omega
  obtain ⟨e0, e1, e2⟩ := after_first m c (prev t) hp0 hp1
  rw [after_second m c t (by omega) h1]
  show k0_pay3 (newAcc _ _ _ (outsAt0 m c (prev t).val (prev t).isLt).2.1 (outsAt0 m c (prev t).val (prev t).isLt).2.2.2)
      (newNorm _ _ (outsAt0 m c (prev t).val (prev t).isLt).2.1 (outsAt0 m c (prev t).val (prev t).isLt).2.2.1) = _
  rw [e0, e1, e2]

end AnyValues

/-! ### Where the blocks sit, and the head axis -/

/-- The block indices over the grid: the head is point / 2, the key block point mod 2; query and output blocks are whole heads. -/
theorem block_indices : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

section AnyValues2

variable {F : FTy → Type} [FloatOps F]
variable (m : (ℓ : Loc nD τ sig) → Buf (Elt F) ℓ)

/-- The query block of point t is head t / 2's 2048 rows. -/
theorem qblock_at (c : Dev nD) (t : Fin cfg0.N) (g : Fin 24) (hg : g.val = t.val / 2) (r : Fin 2048) (d : Fin 64) :
    iblk m c 0 t (ix3 (0 : Fin 1) r d) = V m c main_v0 (ix3 g r d) := by
  obtain ⟨e0, e1, e2, -⟩ := block_indices t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = g.val; omega
  | ⟨1, _⟩ => show win0_0.index t (1 : Fin 3) * 2048 + 1 * r.val = r.val; omega
  | ⟨2, _⟩ => show win0_0.index t (2 : Fin 3) * 64 + 1 * d.val = d.val; omega

/-- The key block of point t is rows (t mod 2) · 1024 + k of head t / 2. -/
theorem kblock_at (c : Dev nD) (t : Fin cfg0.N) (g : Fin 24) (hg : g.val = t.val / 2) (k : Fin 1024) (kk : Fin 2048)
    (hk : kk.val = t.val % 2 * 1024 + k.val) (d : Fin 64) :
    iblk m c 1 t (ix3 (0 : Fin 1) k d) = V m c main_v1 (ix3 g kk d) := by
  obtain ⟨-, -, -, e0, e1, e2, -⟩ := block_indices t
  unfold iblk
  rw [View.read_apply]
  show V m c main_v1 _ = V m c main_v1 _
  refine congrArg (V m c main_v1) (funext fun a => Fin.ext ?_)
  match a with
  | ⟨0, _⟩ => show win0_1.index t (0 : Fin 3) * 1 + 1 * 0 = g.val; omega
  | ⟨1, _⟩ => show win0_1.index t (1 : Fin 3) * 1024 + 1 * k.val = kk.val; omega
  | ⟨2, _⟩ => show win0_1.index t (2 : Fin 3) * 64 + 1 * d.val = d.val; omega

/-- The value block of point t, likewise. -/
theorem vblock_at (c : Dev nD) (t : Fin cfg0.N) (g : Fin 24) (hg : g.val = t.val / 2) (k : Fin 1024) (kk : Fin 2048)
    (hk : kk.val = t.val % 2 * 1024 + k.val) (d : Fin 64) :
    iblk m c 2 t (ix3 (0 : Fin 1) k d) = V m c main_v2 (ix3 g kk d) := by
  obtain ⟨-, -, -, -, -, -, e0, e1, e2, -⟩ := block_indices t
  unfold iblk
  rw [View.read_apply]
  show V m c main_v2 _ = V m c main_v2 _
  refine congrArg (V m c main_v2) (funext fun a => Fin.ext ?_)
  match a with
  | ⟨0, _⟩ => show win0_2.index t (0 : Fin 3) * 1 + 1 * 0 = g.val; omega
  | ⟨1, _⟩ => show win0_2.index t (1 : Fin 3) * 1024 + 1 * k.val = kk.val; omega
  | ⟨2, _⟩ => show win0_2.index t (2 : Fin 3) * 64 + 1 * d.val = d.val; omega

/-- The arrays the grid reads are the arguments with their two leading axes merged. -/
theorem V_q (c : Dev nD) : (V m c main_v0 : S24x2048x64.Idx → Elt F .f32)
    = shapeCast S24x2048x64 (m ((c : Thread nD τ).loc main_arg0)) shapeCasts_S2x12x2048x64_S24x2048x64 := by
  show StableHlo.after hostOps0 (fun b => m (c, b)) (Proc.devRef .tc main_v0) = _
  after_results
  rfl
theorem V_k (c : Dev nD) : (V m c main_v1 : S24x2048x64.Idx → Elt F .f32)
    = shapeCast S24x2048x64 (m ((c : Thread nD τ).loc main_arg1)) shapeCasts_S2x12x2048x64_S24x2048x64 := by
  show StableHlo.after hostOps0 (fun b => m (c, b)) (Proc.devRef .tc main_v1) = _
  after_results
  rfl
theorem V_v (c : Dev nD) : (V m c main_v2 : S24x2048x64.Idx → Elt F .f32)
    = shapeCast S24x2048x64 (m ((c : Thread nD τ).loc main_arg2)) shapeCasts_S2x12x2048x64_S24x2048x64 := by
  show StableHlo.after hostOps0 (fun b => m (c, b)) (Proc.devRef .tc main_v2) = _
  after_results
  rfl

end AnyValues2

/-- Head g = 12 b + h of the merged axis. -/
def head (b : Fin 2) (h : Fin 12) : Fin 24 := ⟨b.val * 12 + h.val, by have := b.isLt; have := h.isLt; omega⟩

/-- Merging the two leading axes: entry (12 b + h, r, d) of the merged array is entry (b, h, r, d). -/
theorem merge_at {α : Type} (x : S2x12x2048x64.Idx → α) (b : Fin 2) (h : Fin 12) (r : Fin 2048) (d : Fin 64) :
    shapeCast S24x2048x64 x shapeCasts_S2x12x2048x64_S24x2048x64 (ix3 (head b h) r d) = x (ix4 b h r d) := by
  refine shapeCast_apply x _ _ _ ?_
  rw [Shape.rowMajor_val_four, Shape.rowMajor_val_three]
  show ((b.val * 12 + h.val) * 2048 + r.val) * 64 + d.val = ((b.val * 12 + h.val) * 2048 + r.val) * 64 + d.val
  rfl

/-- Splitting them again: entry (b, h, r, d) of the split array is entry (12 b + h, r, d). -/
theorem split_at {α : Type} (y : S24x2048x64.Idx → α) (b : Fin 2) (h : Fin 12) (r : Fin 2048) (d : Fin 64) :
    shapeCast S2x12x2048x64 y shapeCasts_S24x2048x64_S2x12x2048x64 (ix4 b h r d) = y (ix3 (head b h) r d) := by
  refine shapeCast_apply y _ _ _ ?_
  rw [Shape.rowMajor_val_four, Shape.rowMajor_val_three]
  show ((b.val * 12 + h.val) * 2048 + r.val) * 64 + d.val = ((b.val * 12 + h.val) * 2048 + r.val) * 64 + d.val
  rfl

/-! ### Every entry of the result -/

/-- Entry (g, r, d) of the [24, 2048, 64] result: head g's two-block softmax-weighted sum of value column d under row r's scores. -/
def entry (Q3 K3 V3 : S24x2048x64.Idx → EReal) (g : Fin 24) (r : Fin 2048) (d : Fin 64) : EReal :=
  twoBlock (fun k => scoreBefore (fun dd => Q3 (ix3 g r dd)) (fun dd => K3 (ix3 g k dd)) cScale) (fun k => V3 (ix3 g k d))

/-- The [24, 2048, 64] result as one function of the three merged arrays. -/
def result3 (Q3 K3 V3 : S24x2048x64.Idx → EReal) : S24x2048x64.Idx → EReal :=
  fun i => entry Q3 K3 V3 ⟨(i 0).val, (i 0).isLt⟩ ⟨(i 1).val, (i 1).isLt⟩ ⟨(i 2).val, (i 2).isLt⟩

theorem result3_at (Q3 K3 V3 : S24x2048x64.Idx → EReal) (i : S24x2048x64.Idx) (g : Fin 24) (r : Fin 2048) (d : Fin 64)
    (h0 : (i 0).val = g.val) (h1 : (i 1).val = r.val) (h2 : (i 2).val = d.val) :
    result3 Q3 K3 V3 i = entry Q3 K3 V3 g r d := by
  unfold result3
  have e0 : (⟨(i 0).val, (i 0).isLt⟩ : Fin 24) = g := Fin.ext h0
  have e1 : (⟨(i 1).val, (i 1).isLt⟩ : Fin 2048) = r := Fin.ext h1
  have e2 : (⟨(i 2).val, (i 2).isLt⟩ : Fin 64) = d := Fin.ext h2
  rw [e0, e1, e2]

/-- A block's entry depends on the index's coordinates only. -/
theorem at_coords {α : Type} (X : S1x2048x64.Idx → α) (y : S1x2048x64.Idx) (r : Fin 2048) (d : Fin 64)
    (h0 : (y 0).val = 0) (h1 : (y 1).val = r.val) (h2 : (y 2).val = d.val) : X y = X (ix3 (0 : Fin 1) r d) :=
  congrArg X (funext fun a => Fin.ext (by
    match a with
    | ⟨0, _⟩ => exact h0
    | ⟨1, _⟩ => exact h1
    | ⟨2, _⟩ => exact h2))

section AtIdeal

variable (m : (ℓ : Loc nD τ sig) → Buf (Elt Ideal) ℓ) (ρ : Dev nD → PrngReg)

/-- What the output block holds after head g's second key block, entry by entry. -/
theorem block_entry (c : Dev nD) (t : Fin cfg0.N) (h1 : t.val % 2 = 1) (g : Fin 24) (hg : g.val = t.val / 2) (r : Fin 2048) (d : Fin 64) :
    (outsAt0 m c t.val t.isLt).1 (ix3 (0 : Fin 1) r d) = entry (V m c main_v0) (V m c main_v1) (V m c main_v2) g r d := by
  rw [block_after m c t h1]
  unfold entry
  have hgp : g.val = (prev t).val / 2 := by show g.val = (t.val - 1) / 2; omega
  refine two_steps (iblk m c 0 (prev t)) (iblk m c 0 t) (iblk m c 1 (prev t)) (iblk m c 2 (prev t)) (iblk m c 1 t) (iblk m c 2 t) r d _ _ ?_ ?_ ?_ ?_
  · intro k
    have hlo : (lo k).val = (prev t).val % 2 * 1024 + k.val := by show k.val = (t.val - 1) % 2 * 1024 + k.val; omega
    exact congrArg₂ (fun q kk => scoreBefore q kk cScale) (funext fun dd => (qblock_at m c (prev t) g hgp r dd).symm)
      (funext fun dd => (kblock_at m c (prev t) g hgp k (lo k) hlo dd).symm)
  · intro k
    have hhi : (hi k).val = t.val % 2 * 1024 + k.val := by show 1024 + k.val = t.val % 2 * 1024 + k.val; omega
    exact congrArg₂ (fun q kk => scoreBefore q kk cScale) (funext fun dd => (qblock_at m c t g hg r dd).symm)
      (funext fun dd => (kblock_at m c t g hg k (hi k) hhi dd).symm)
  · intro k
    have hlo : (lo k).val = (prev t).val % 2 * 1024 + k.val := by show k.val = (t.val - 1) % 2 * 1024 + k.val; omega
    exact (vblock_at m c (prev t) g hgp k (lo k) hlo d).symm
  · intro k
    have hhi : (hi k).val = t.val % 2 * 1024 + k.val := by show 1024 + k.val = t.val % 2 * 1024 + k.val; omega
    exact (vblock_at m c t g hg k (hi k) hhi d).symm

/-- What an odd point writes back is its block of the result. -/
theorem flushed_eq (c : Dev nD) (t : Fin cfg0.N) (hf : (cfg0.win 3).flush t = true) :
    (dats m 0 c).flushed 3 t
      = ((cfg0.win 3).blk t).view.read (Elt Ideal) (result3 (V m c main_v0) (V m c main_v1) (V m c main_v2)) := by
  have h1 : t.val % 2 = 1 := (flush0_3 t).mp hf
  have hN : t.val < 48 := lt_of_lt_of_eq t.isLt N_0
  obtain ⟨-, -, -, -, -, -, -, -, -, e0, e1, e2⟩ := block_indices t
  show (cfg0.win 3).cut (grid0.coords t) ((dats m 0 c).after 3 t) = _
  rw [after0_3]
  funext j
  have hj0 : (j 0).val = 0 := by have h : (j 0).val < 1 := (j 0).isLt; omega
  have hj1 : (j 1).val < 2048 := (j 1).isLt
  have hj2 : (j 2).val < 64 := (j 2).isLt
  show (outsAt0 m c t.val t.isLt).1 ((cfg0.win 3).xinj (grid0.coords t) j)
    = result3 (V m c main_v0) (V m c main_v1) (V m c main_v2) (((cfg0.win 3).blk t).view.emb j)
  refine (at_coords (outsAt0 m c t.val t.isLt).1 ((cfg0.win 3).xinj (grid0.coords t) j) ⟨(j 1).val, hj1⟩ ⟨(j 2).val, hj2⟩ hj0 rfl rfl).trans ?_
  rw [block_entry m c t h1 ⟨t.val / 2, by omega⟩ rfl]
  refine (result3_at _ _ _ _ ⟨t.val / 2, by omega⟩ ⟨(j 1).val, hj1⟩ ⟨(j 2).val, hj2⟩ ?_ ?_ ?_).symm
  · show win0_3.index t (0 : Fin 3) * 1 + 1 * (j 0).val = t.val / 2; omega
  · show win0_3.index t (1 : Fin 3) * 2048 + 1 * (j 1).val = (j 1).val; omega
  · show win0_3.index t (2 : Fin 3) * 64 + 1 * (j 2).val = (j 2).val; omega

/-- An entry lies in point t's output block iff each coordinate lies in the block's range. -/
theorem mem_blk (t : Fin cfg0.N) (i : S24x2048x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v3).slice (win0_3.rect t)).set ↔ _
  rw [View.set_slice_whole, Rect.mem_set_unit]
  exact Iff.rfl

/-- Every entry is written back, by the second point of its head. -/
theorem covered (i : S24x2048x64.Idx) :
    ∃ t : Fin cfg0.N, (cfg0.win 3).flush t = true ∧ i ∈ ((cfg0.win 3).blk t).view.set := by
  have hi0 : (i 0).val < 24 := (i 0).isLt
  have hi1 : (i 1).val < 2048 := (i 1).isLt
  have hi2 : (i 2).val < 64 := (i 2).isLt
  have hN : cfg0.N = 48 := N_0
  obtain ⟨t, ht⟩ : ∃ t : Fin cfg0.N, t.val = 2 * (i 0).val + 1 := ⟨⟨2 * (i 0).val + 1, by rw [hN]; omega⟩, rfl⟩
  obtain ⟨-, -, -, -, -, -, -, -, -, e0, e1, e2⟩ := block_indices t
  refine ⟨t, (flush0_3 t).mpr (by omega), ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-- The [24, 2048, 64] array after the grid. -/
theorem final (c : Dev nD) :
    (dats m 0 c).arrAt 3 cfg0.N = result3 (V m c main_v0) (V m c main_v1) (V m c main_v2) :=
  (dats m 0 c).arrAt_eq_of_cover 3 (result3 (V m c main_v0) (V m c main_v1) (V m c main_v2)) (flushed_eq m c) covered

end AtIdeal

/-! ### After the grid: the head axis split again, and the run -/

section Run

variable (m : (ℓ : Loc nD τ sig) → Buf (Elt Ideal) ℓ) (ρ : Dev nD → PrngReg)

/-- The [2, 12, 2048, 64] result: the [24, 2048, 64] one with its head axis split. -/
def out (c : Dev nD) : S2x12x2048x64.Idx → EReal :=
  shapeCast S2x12x2048x64 (result3 (V m c main_v0) (V m c main_v1) (V m c main_v2)) shapeCasts_S24x2048x64_S2x12x2048x64

/-- What the operation after the grid leaves in the result buffer. -/
theorem tail_eq (c : Dev nD) : Pipeline.afterTail₀ cfgs (dats m) 0 (V0 m) [hostOps1] c main_v4 = out m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = result3 (V m c main_v0) (V m c main_v1) (V m c main_v2) :=
    (Pipeline.withArrays_arr spec0 launch0.win.arr_inj c _ _ 3).trans (final m c)
  funext i
  show shapeCast S2x12x2048x64 (Pipeline.withArrays (cfgs 0).spec c (V0 m c) (fun w => (dats m 0 c).arrAt w (cfgs 0).N) (Proc.devRef .tc main_v3))
    shapeCasts_S24x2048x64_S2x12x2048x64 i = out m c i
  rw [e]
  rfl

/-- The run, read: the result buffer ends at the split result, the arguments unchanged. -/
theorem run : θ_run defs (onTc (τ := τ) (main (F := Ideal))) ⟨m, fun _ => 0, ρ⟩ fun r => ∀ c : Dev nD,
      r.2.mem ((c.tc : Thread nD τ).loc main_v4) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- Entry (b, h, r, d) of the result, from the three arguments: head (b, h)'s two-block softmax-weighted sum of value
    column d under row r's scores, each query entry scaled before the dot product. -/
theorem out_at (c : Dev nD) (b : Fin 2) (h : Fin 12) (r : Fin 2048) (d : Fin 64) :
    out m c (ix4 b h r d)
      = twoBlock (fun k => scoreBefore (fun dd => m ((c.tc : Thread nD τ).loc main_arg0) (ix4 b h r dd))
            (fun dd => m ((c.tc : Thread nD τ).loc main_arg1) (ix4 b h k dd)) cScale)
          (fun k => m ((c.tc : Thread nD τ).loc main_arg2) (ix4 b h k d)) := by
  unfold out
  rw [split_at, result3_at _ _ _ _ (head b h) r d rfl rfl rfl]
  unfold entry
  rw [V_q, V_k, V_v]
  simp only [merge_at]

end Run

end Cert.KernelIdeal.Whole

end
-- ==== Proof.RefRow.lean ====
/-
  The reference, read at one output element. Its element (b, h, r, d) is the one-pass softmax-weighted sum over the
  2048 keys: the score of key k is the dot product over the 64 entries of query row r with key row k, scaled after;
  the row's maximum is the fold of max from -∞ over the keys, taken once more against -∞; the weight is
  exp (score - maximum), the normaliser 0 plus the sum of the weights, and the result the sum over the keys of
  (weight / normaliser) times the value entry (b, h, k, d). Each stage of the reference is read at the index the next
  stage asks for; the indices are identified coordinate by coordinate.
-/
import proofs.«163254_j31164282700439_2_alg».proof.Proof.Gen.ReferenceIdeal.Read
import proofs.«163254_j31164282700439_2_alg».proof.Proof.Softmax
import Idealize.ShloMosaic.Lib.ValueIdx
import Idealize.ShloMosaic.PureOps.Ideal.Laws

noncomputable section

namespace Cert.ReferenceIdeal.RefRow

open Cert.ReferenceIdeal Cert.ReferenceIdeal.Gen Cert.ReferenceIdeal.Read Idealize.ShloMosaic Idealize.ShloMosaic.ValueIdx Cert.Attention

/-- The word 0xFF800000 denotes -∞. -/
theorem negInf_word : Ideal.ofBits .f32 0xFF800000#32 = (⊥ : EReal) := by simp [Ideal.ofBits, Ideal.ieee]

/-- An input: a 2 × 12 × 2048 × 64 array of extended reals. -/
abbrev In : Type := (⟨S2x12x2048x64, .f32⟩ : BufTy).Contents (Elt Ideal)

/-- The score of query row r against key row k, for batch b and head h. -/
def scores (x0 x1 : In) (b : Fin 2) (h : Fin 12) (r k : Fin 2048) : EReal :=
  scoreAfter (fun dd => x0 (ix4 b h r dd)) (fun dd => x1 (ix4 b h k dd)) (Ideal.ofBits .f32 0x3CB504F3#32)

/-- The scaled dot product at (b, h, r, k) is the score. -/
theorem v2_at (x0 x1 : In) (b : Fin 2) (h : Fin 12) (r k : Fin 2048) :
    val_main_v2 (F := Ideal) x0 x1 (ix4 b h r k) = scores x0 x1 b h r k := by
  rw [val_main_v2_apply, val_main_v0_apply, val_main_v1_apply, val_main_cst_apply]
  show (∑ dd : Fin 64, x0 (lidx_main_v0 (ix4 b h r k) dd) * x1 (ridx_main_v0 (ix4 b h r k) dd))
      * Ideal.ofBits .f32 0x3CB504F3#32 = _
  unfold scores scoreAfter
  refine congrArg (· * _) (Finset.sum_congr rfl fun dd _ => ?_)
  have e0 : lidx_main_v0 (ix4 b h r k) dd = ix4 b h r dd := funext fun a => Fin.ext (by
    match a with | ⟨0, _⟩ => rfl | ⟨1, _⟩ => rfl | ⟨2, _⟩ => rfl | ⟨3, _⟩ => rfl)
  have e1 : ridx_main_v0 (ix4 b h r k) dd = ix4 b h k dd := funext fun a => Fin.ext (by
    match a with | ⟨0, _⟩ => rfl | ⟨1, _⟩ => rfl | ⟨2, _⟩ => rfl | ⟨3, _⟩ => rfl)
  rw [e0, e1]

/-- The reduced index (b, h, r) with key k inserted on the last axis is (b, h, r, k). -/
theorem lift_at (hR : Shape.Reduces S2x12x2048x2048 [3] S2x12x2048) (b : Fin 2) (h : Fin 12) (r k : Fin 2048) :
    hR.lift (ix3 b h r) k = ix4 b h r k := funext fun a => Fin.ext (by
  match a with | ⟨0, _⟩ => rfl | ⟨1, _⟩ => rfl | ⟨2, _⟩ => rfl | ⟨3, _⟩ => rfl)

/-- The max-reduce at (b, h, r): the fold of max from -∞ over the row of scores. -/
theorem v3_at (x0 x1 : In) (b : Fin 2) (h : Fin 12) (r : Fin 2048) :
    val_main_v3 (F := Ideal) x0 x1 (ix3 b h r) = maxOver (scores x0 x1 b h r) := by
  have hR : Shape.Reduces S2x12x2048x2048 [3] S2x12x2048 := by decide
  unfold val_main_v3
  refine (Host.reduce_eq_fold_single (FloatOps.maximumf (F := Ideal) (φ := .f32)) _ _
    reducesTo_S2x12x2048x2048_S2x12x2048_d3 hR h_S_ (ix3 b h r)).trans ?_
  have hinit : val_main_cst_0 (F := Ideal) (Shape.Idx.first h_S_) = (⊥ : EReal) := negInf_word
  have hfun : (val_main_v2 (F := Ideal) x0 x1 ∘ hR.lift (ix3 b h r)) = scores x0 x1 b h r :=
    funext fun (k : Fin 2048) =>
      (congrArg (val_main_v2 (F := Ideal) x0 x1) (lift_at hR b h r k)).trans (v2_at x0 x1 b h r k)
  rw [hinit, hfun]
  rfl

/-- The maximum taken once more against -∞, at (b, h, r): the row's maximum. -/
theorem v5_at (x0 x1 : In) (b : Fin 2) (h : Fin 12) (r : Fin 2048) :
    val_main_v5 (F := Ideal) x0 x1 (ix3 b h r) = rowMax (scores x0 x1 b h r) := by
  rw [val_main_v5_apply, val_main_v4_apply, val_main_cst_1_apply, v3_at]
  show max (Ideal.ofBits .f32 0xFF800000#32) _ = _
  rw [negInf_word]
  rfl

/-- The row's maximum broadcast back over the keys. -/
theorem v7_at (x0 x1 : In) (b : Fin 2) (h : Fin 12) (r k : Fin 2048) :
    val_main_v7 (F := Ideal) x0 x1 (ix4 b h r k) = rowMax (scores x0 x1 b h r) := by
  rw [val_main_v7_apply, val_main_v6_apply]
  have e : idx_main_v6 (idx_main_v7 (ix4 b h r k)) = ix3 b h r := funext fun a => Fin.ext (by
    match a with | ⟨0, _⟩ => rfl | ⟨1, _⟩ => rfl | ⟨2, _⟩ => rfl)
  rw [e, v5_at]

/-- The weight of key k. -/
theorem v9_at (x0 x1 : In) (b : Fin 2) (h : Fin 12) (r k : Fin 2048) :
    val_main_v9 (F := Ideal) x0 x1 (ix4 b h r k) = expw (scores x0 x1 b h r) k := by
  rw [val_main_v9_apply, val_main_v8_apply, v2_at, v7_at]
  rfl

/-- The normaliser at (b, h, r). -/
theorem v10_at (x0 x1 : In) (b : Fin 2) (h : Fin 12) (r : Fin 2048) :
    val_main_v10 (F := Ideal) x0 x1 (ix3 b h r) = Attention.norm (scores x0 x1 b h r) := by
  rw [val_main_v10_apply, val_main_cst_2_apply]
  show Ideal.ofBits .f32 0x00000000#32 + _ = _
  rw [Ideal.ofBits_zero_f32]
  unfold Attention.norm
  refine congrArg (0 + ·) (Finset.sum_congr rfl fun k _ => ?_)
  have e : idx_main_v10 (ix3 b h r) k = ix4 b h r k := funext fun a => Fin.ext (by
    match a with | ⟨0, _⟩ => rfl | ⟨1, _⟩ => rfl | ⟨2, _⟩ => rfl | ⟨3, _⟩ => rfl)
  rw [e, v9_at]

/-- The normaliser broadcast back over the keys. -/
theorem v12_at (x0 x1 : In) (b : Fin 2) (h : Fin 12) (r k : Fin 2048) :
    val_main_v12 (F := Ideal) x0 x1 (ix4 b h r k) = Attention.norm (scores x0 x1 b h r) := by
  rw [val_main_v12_apply, val_main_v11_apply]
  have e : idx_main_v11 (idx_main_v12 (ix4 b h r k)) = ix3 b h r := funext fun a => Fin.ext (by
    match a with | ⟨0, _⟩ => rfl | ⟨1, _⟩ => rfl | ⟨2, _⟩ => rfl)
  rw [e, v10_at]

/-- The normalised weight of key k. -/
theorem v13_at (x0 x1 : In) (b : Fin 2) (h : Fin 12) (r k : Fin 2048) :
    val_main_v13 (F := Ideal) x0 x1 (ix4 b h r k)
      = Ideal.div (expw (scores x0 x1 b h r) k) (Attention.norm (scores x0 x1 b h r)) := by
  rw [val_main_v13_apply, v9_at, v12_at]
  rfl

/-- The reference at (b, h, r, d) is the one-pass form on the row of scores and the column of values. -/
theorem ref_at_scores (x0 x1 x2 : In) (b : Fin 2) (h : Fin 12) (r : Fin 2048) (d : Fin 64) :
    val_main_v14 (F := Ideal) x0 x1 x2 (ix4 b h r d) = onePass (scores x0 x1 b h r) (fun k => x2 (ix4 b h k d)) := by
  rw [val_main_v14_apply]
  unfold onePass
  refine Finset.sum_congr rfl fun k _ => ?_
  have el : lidx_main_v14 (ix4 b h r d) k = ix4 b h r k := funext fun a => Fin.ext (by
    match a with | ⟨0, _⟩ => rfl | ⟨1, _⟩ => rfl | ⟨2, _⟩ => rfl | ⟨3, _⟩ => rfl)
  have er : ridx_main_v14 (ix4 b h r d) k = ix4 b h k d := funext fun a => Fin.ext (by
    match a with | ⟨0, _⟩ => rfl | ⟨1, _⟩ => rfl | ⟨2, _⟩ => rfl | ⟨3, _⟩ => rfl)
  rw [el, er, v13_at]

theorem ref_at (x0 x1 x2 : (⟨S2x12x2048x64, .f32⟩ : BufTy).Contents (Elt Ideal)) (b : Fin 2) (h : Fin 12) (r : Fin 2048) (d : Fin 64) :
    val_main_v14 (F := Ideal) x0 x1 x2 (ix4 b h r d)
      = onePass (fun k => scoreAfter (fun dd => x0 (ix4 b h r dd)) (fun dd => x1 (ix4 b h k dd)) (Ideal.ofBits .f32 0x3CB504F3#32))
          (fun k => x2 (ix4 b h k d)) :=
  ref_at_scores x0 x1 x2 b h r d

end Cert.ReferenceIdeal.RefRow

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.LibRealVar.lean ====
/-
  Facts about extended reals that happen to be reals: a finite sum of reals is the real sum; sums, products,
  differences, quotients by a nonzero real, maxima and the reciprocal square root of a positive real stay real;
  and the variance identity: for a real column y_1 … y_n with mean μ = (∑ y) / n,
      (∑ (y_p − μ)²) / n = (∑ y_p²) / n − μ²,
  which is distributivity and therefore needs every y_p to be a real. The deviation form is also nonnegative.
-/
import Idealize.ShloMosaic.PureOps.Ideal

noncomputable section

namespace Cert.RealMath

open Idealize.ShloMosaic

/-- x is (the coercion of) a real number. -/
def IsReal (x : EReal) : Prop := ∃ r : ℝ, x = (r : EReal)

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_div {x : EReal} {c : ℝ} (hx : IsReal x) (hc : c ≠ 0) : IsReal (Ideal.div x (c : EReal)) := by
  obtain ⟨a, rfl⟩ := hx
  exact ⟨a * (1 / c), by rw [Ideal.div_coe hc, ← EReal.coe_mul]⟩

theorem isReal_max {x y : EReal} (hx : IsReal x) (hy : IsReal y) : IsReal (max x y) := by
  rcases le_total x y with h | h
  · rw [max_eq_right h]; exact hy
  · rw [max_eq_left h]; exact hx

theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

section Variance

variable {n : ℕ} (y : Fin n → EReal) (c : ℝ)

/-- The variance identity on a real column. -/
theorem var_identity (hy : ∀ p, IsReal (y p)) (hc : c ≠ 0) (hn : (n : ℝ) = c) :
    Ideal.div (∑ p, (y p - Ideal.div (∑ p, y p) (c : EReal)) * (y p - Ideal.div (∑ p, y p) (c : EReal))) (c : EReal)
      = Ideal.div (∑ p, y p * y p) (c : EReal)
        - Ideal.div (∑ p, y p) (c : EReal) * Ideal.div (∑ p, y p) (c : EReal) := by
  choose yr hyr using hy
  simp only [hyr]
  have hS : ∑ p, ((yr p : ℝ) : EReal) = ((∑ p, yr p : ℝ) : EReal) := coe_sum _ _
  have hSS : ∑ p, ((yr p : ℝ) : EReal) * ((yr p : ℝ) : EReal) = ((∑ p, yr p * yr p : ℝ) : EReal) := by
    rw [← coe_sum]; exact Finset.sum_congr rfl fun p _ => (EReal.coe_mul _ _).symm
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc, ← EReal.coe_mul, hμ]
  rw [hM, hSS]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc, Ideal.div_coe hc, ← EReal.coe_mul, ← EReal.coe_mul, ← EReal.coe_mul, ← EReal.coe_sub]
  refine congrArg _ ?_
  have h1 : ∀ p, (yr p - μ) * (yr p - μ) = yr p * yr p - 2 * μ * yr p + μ * μ := fun p => by ring
  simp only [h1, Finset.sum_add_distrib, Finset.sum_sub_distrib, ← Finset.mul_sum, Finset.sum_const,
    Finset.card_univ, Fintype.card_fin, nsmul_eq_mul]
  rw [hn, hμ]
  field_simp
  ring

/-- The mean of squared deviations of a real column, over a positive count, is a nonnegative real. -/
theorem var_nonneg (hy : ∀ p, IsReal (y p)) (hc : 0 < c) :
    ∃ v : ℝ, 0 ≤ v ∧ Ideal.div (∑ p, (y p - Ideal.div (∑ p, y p) (c : EReal)) * (y p - Ideal.div (∑ p, y p) (c : EReal)))
      (c : EReal) = (v : EReal) := by
  choose yr hyr using hy
  simp only [hyr]
  have hS : ∑ p, ((yr p : ℝ) : EReal) = ((∑ p, yr p : ℝ) : EReal) := coe_sum _ _
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc.ne', ← EReal.coe_mul, hμ]
  rw [hM]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc.ne', ← EReal.coe_mul]
  exact ⟨_, mul_nonneg (Finset.sum_nonneg fun p _ => mul_self_nonneg _) (by positivity), rfl⟩

end Variance

end Cert.RealMath

end
-- ==== Proof.FiniteInputs.lean ====
/-
  From the precondition to real numbers. The precondition is, for each of the three inputs, the all-reduction by
  "and" of the entrywise comparison |x| < +∞, the three results joined by "and". When it is one, each of the three
  all-reductions is one, and then every entry of each input is an extended real that is neither -∞ nor +∞: a real.
-/
import proofs.«163254_j31164282700439_2_alg».proof.Pre_finite_inputs
import proofs.«163254_j31164282700439_2_alg».proof.Proof.Gen.Pre_finite_inputs
import proofs.«163254_j31164282700439_2_alg».proof.Proof.LibAllFinite
import proofs.«163254_j31164282700439_2_alg».proof.Proof.LibRealVar

noncomputable section

namespace Cert.FiniteInputs

open Idealize.ShloMosaic Idealize.ShloMosaic.ValueIdx Cert.Pre_finite_inputs Cert.Pre_finite_inputs.Gen

theorem reals_of_pre (a0 a1 a2 : FVec Ideal Cert.Pre_finite_inputs.S2x12x2048x64 .f32)
    (h : Cert.Pre_finite_inputs.fn (F := Ideal) a0 a1 a2 = fun _ => 1#1) :
    (∀ i, Cert.RealMath.IsReal (a0 i)) ∧ (∀ i, Cert.RealMath.IsReal (a1 i)) ∧ (∀ i, Cert.RealMath.IsReal (a2 i)) := by
  have h0 := congrFun h ValueIdx.ix0
  dsimp only [Cert.Pre_finite_inputs.fn] at h0
  -- the two "and"s at the one index
  obtain ⟨h01, h2⟩ := IntOp.andi_eq_one.1 h0
  obtain ⟨h0', h1⟩ := IntOp.andi_eq_one.1 h01
  exact ⟨fun i => Cert.Lib.AllFinite.real_of_all a0 Facts.bcast_S_S2x12x2048x64 Facts.reducesTo_S2x12x2048x64_S_d0_1_2_3 Facts.h_S_ h0' i,
    fun i => Cert.Lib.AllFinite.real_of_all a1 Facts.bcast_S_S2x12x2048x64 Facts.reducesTo_S2x12x2048x64_S_d0_1_2_3 Facts.h_S_ h1 i,
    fun i => Cert.Lib.AllFinite.real_of_all a2 Facts.bcast_S_S2x12x2048x64 Facts.reducesTo_S2x12x2048x64_S_d0_1_2_3 Facts.h_S_ h2 i⟩

end Cert.FiniteInputs

end
-- ==== Proof.SoftmaxLaw.lean ====
/-
  The law that joins the two ways of forming softmax-weighted sums. On a row of real scores and real values, the
  two-block form with a running maximum equals the one-pass form. The only fact about the maxima that matters is
  that the running maximum after both blocks is the row's maximum, and that every maximum taken is a real: then
  exp (m0 - M) * exp (s k - m0) = exp (s k - M), the sum over 2048 keys is the sum over the first 1024 plus the sum
  over the last 1024, the normaliser is a positive real, and the quotient distributes over the sum. Every step is
  taken among the reals. Also: scaling every query entry before the dot product is scaling the dot product after.
-/
import proofs.«163254_j31164282700439_2_alg».proof.Proof.Softmax
import proofs.«163254_j31164282700439_2_alg».proof.Proof.LibRealVar

noncomputable section

namespace Cert.Attention

open Idealize.ShloMosaic Cert.RealMath

/-! ### The score -/

/-- A sum of products of reals is the real sum of the real products. -/
theorem coe_sum_mul {ι : Type*} (t : Finset ι) (a b : ι → ℝ) :
    ∑ i ∈ t, ((a i : ℝ) : EReal) * ((b i : ℝ) : EReal) = ((∑ i ∈ t, a i * b i : ℝ) : EReal) := by
  rw [← coe_sum]; exact Finset.sum_congr rfl fun i _ => (EReal.coe_mul _ _).symm

theorem score_scale (q kk : Fin 64 → EReal) (c : EReal) (hq : ∀ d, IsReal (q d)) (hk : ∀ d, IsReal (kk d))
    (hc : IsReal c) : scoreBefore q kk c = scoreAfter q kk c := by
  choose qr hqr using hq
  choose kr hkr using hk
  obtain ⟨cr, rfl⟩ := hc
  unfold scoreBefore scoreAfter
  simp only [hqr, hkr]
  have h1 : ∑ d : Fin 64, (((qr d : ℝ) : EReal) * (cr : EReal)) * ((kr d : ℝ) : EReal)
      = ((∑ d : Fin 64, (qr d * cr) * kr d : ℝ) : EReal) := by
    rw [← coe_sum]; exact Finset.sum_congr rfl fun d _ => by rw [← EReal.coe_mul, ← EReal.coe_mul]
  rw [h1, coe_sum_mul, ← EReal.coe_mul, Finset.sum_mul]
  exact congrArg _ (Finset.sum_congr rfl fun d _ => by ring)

theorem isReal_scoreAfter (q kk : Fin 64 → EReal) (c : EReal) (hq : ∀ d, IsReal (q d)) (hk : ∀ d, IsReal (kk d))
    (hc : IsReal c) : IsReal (scoreAfter q kk c) :=
  isReal_mul (isReal_sum _ _ fun d _ => isReal_mul (hq d) (hk d)) hc

/-! ### The maxima -/

/-- The maximum from -∞ is the supremum over all keys. -/
theorem maxOver_eq_sup {n : ℕ} (f : Fin n → EReal) : maxOver f = (Finset.univ : Finset (Fin n)).sup f := rfl

/-- The maximum of a nonempty family of reals is one of them, so a real. -/
theorem isReal_maxOver {n : ℕ} (f : Fin (n + 1) → EReal) (hf : ∀ k, IsReal (f k)) : IsReal (maxOver f) := by
  obtain ⟨i, _, hi⟩ := Finset.exists_mem_eq_sup (Finset.univ : Finset (Fin (n + 1))) Finset.univ_nonempty f
  rw [maxOver_eq_sup, hi]; exact hf i

/-- Every key is in the first block or in the second. -/
theorem lo_or_hi (k : Fin 2048) : (∃ j, k = lo j) ∨ ∃ j, k = hi j := by
  by_cases h : k.val < 1024
  · exact Or.inl ⟨⟨k.val, h⟩, Fin.ext rfl⟩
  · exact Or.inr ⟨⟨k.val - 1024, by have := k.isLt; omega⟩, Fin.ext (by simp only [hi]; omega)⟩

/-- The maximum over the row is the larger of the two blocks' maxima. -/
theorem maxOver_split (s : Fin 2048 → EReal) :
    maxOver s = max (maxOver fun k => s (lo k)) (maxOver fun k => s (hi k)) := by
  simp only [maxOver_eq_sup]
  apply le_antisymm
  · refine Finset.sup_le fun k _ => ?_
    rcases lo_or_hi k with ⟨j, rfl⟩ | ⟨j, rfl⟩
    · exact le_max_of_le_left (Finset.le_sup (f := fun k => s (lo k)) (Finset.mem_univ j))
    · exact le_max_of_le_right (Finset.le_sup (f := fun k => s (hi k)) (Finset.mem_univ j))
  · exact max_le (Finset.sup_le fun j _ => Finset.le_sup (f := s) (Finset.mem_univ (lo j)))
      (Finset.sup_le fun j _ => Finset.le_sup (f := s) (Finset.mem_univ (hi j)))

/-- The running maximum after both blocks is the row's maximum. -/
theorem m1_eq_rowMax (s : Fin 2048 → EReal) : m1 s = rowMax s := by
  unfold m1 m0 rowMax
  rw [max_bot_left, max_bot_left, maxOver_split]

theorem isReal_m0 (s : Fin 2048 → EReal) (hs : ∀ k, IsReal (s k)) : IsReal (m0 s) := by
  unfold m0; rw [max_bot_left]; exact isReal_maxOver (n := 1023) _ fun k => hs (lo k)

theorem isReal_rowMax (s : Fin 2048 → EReal) (hs : ∀ k, IsReal (s k)) : IsReal (rowMax s) := by
  unfold rowMax; rw [max_bot_left]; exact isReal_maxOver (n := 2047) _ hs

/-! ### Sums over the row -/

/-- A sum over the 2048 keys is the sum over the first block plus the sum over the second. -/
theorem sum_split (f : Fin 2048 → ℝ) :
    ∑ k : Fin 2048, f k = ∑ k : Fin 1024, f (lo k) + ∑ k : Fin 1024, f (hi k) :=
  Fin.sum_univ_add (a := 1024) (b := 1024) f

/-! ### The two forms agree -/

theorem twoBlock_eq_onePass (s v : Fin 2048 → EReal) (hs : ∀ k, IsReal (s k)) (hv : ∀ k, IsReal (v k)) :
    twoBlock s v = onePass s v := by
  -- the maxima: m0 = μ and m1 = rowMax = M, both reals
  obtain ⟨μ, hμ⟩ := isReal_m0 s hs
  obtain ⟨M, hM⟩ := isReal_rowMax s hs
  have hm1 : m1 s = (M : EReal) := by rw [m1_eq_rowMax, hM]
  choose sr hsr using hs
  choose vr hvr using hv
  -- first block: the rescaling factor is exp (-∞) = 0, the weights are real exponentials
  have ha0 : a0 s = 0 := by unfold a0; rw [EReal.bot_sub, Ideal.exp_bot]
  have hp0 : ∀ k, p0 s k = ((Real.exp (sr (lo k) - μ) : ℝ) : EReal) := fun k => by
    unfold p0; rw [hμ, hsr, ← EReal.coe_sub, Ideal.exp_coe]
  have hl0 : l0 s = ((∑ k : Fin 1024, Real.exp (sr (lo k) - μ) : ℝ) : EReal) := by
    unfold l0; rw [ha0, zero_mul, zero_add, ← coe_sum]; exact Finset.sum_congr rfl fun k _ => hp0 k
  have hacc0 : acc0 s v = ((∑ k : Fin 1024, Real.exp (sr (lo k) - μ) * vr (lo k) : ℝ) : EReal) := by
    unfold acc0; rw [ha0, zero_mul, zero_add, ← coe_sum_mul]
    exact Finset.sum_congr rfl fun k _ => by rw [hp0 k, hvr]
  -- second block
  have ha1 : a1 s = ((Real.exp (μ - M) : ℝ) : EReal) := by
    unfold a1; rw [hμ, hm1, ← EReal.coe_sub, Ideal.exp_coe]
  have hp1 : ∀ k, p1 s k = ((Real.exp (sr (hi k) - M) : ℝ) : EReal) := fun k => by
    unfold p1; rw [hm1, hsr, ← EReal.coe_sub, Ideal.exp_coe]
  have hsp1 : ∑ k : Fin 1024, p1 s k = ((∑ k : Fin 1024, Real.exp (sr (hi k) - M) : ℝ) : EReal) := by
    rw [← coe_sum]; exact Finset.sum_congr rfl fun k _ => hp1 k
  have hsp1v : ∑ k : Fin 1024, p1 s k * v (hi k)
      = ((∑ k : Fin 1024, Real.exp (sr (hi k) - M) * vr (hi k) : ℝ) : EReal) := by
    rw [← coe_sum_mul]; exact Finset.sum_congr rfl fun k _ => by rw [hp1 k, hvr]
  -- the one-pass weights
  have hew : ∀ k, expw s k = ((Real.exp (sr k - M) : ℝ) : EReal) := fun k => by
    unfold expw; rw [hM, hsr, ← EReal.coe_sub, Ideal.exp_coe]
  -- moving the first block's weights from the old maximum to the new one
  have hre : ∀ k : Fin 1024, Real.exp (μ - M) * Real.exp (sr (lo k) - μ) = Real.exp (sr (lo k) - M) := fun k => by
    rw [← Real.exp_add]; congr 1; ring
  -- the normaliser L and the numerator A, over the whole row
  obtain ⟨L, hL⟩ : ∃ L : ℝ, L = ∑ k : Fin 2048, Real.exp (sr k - M) := ⟨_, rfl⟩
  obtain ⟨A, hA⟩ : ∃ A : ℝ, A = ∑ k : Fin 2048, Real.exp (sr k - M) * vr k := ⟨_, rfl⟩
  have hLne : L ≠ 0 := by
    rw [hL]; exact (Finset.sum_pos (fun k _ => Real.exp_pos _) Finset.univ_nonempty).ne'
  have hl1 : l1 s = (L : EReal) := by
    unfold l1
    rw [ha1, hl0, hsp1, ← EReal.coe_mul, ← EReal.coe_add, hL, sum_split fun k => Real.exp (sr k - M), Finset.mul_sum]
    simp only [hre]
  have hacc1 : acc1 s v = (A : EReal) := by
    unfold acc1
    rw [ha1, hacc0, hsp1v, ← EReal.coe_mul, ← EReal.coe_add, hA, sum_split fun k => Real.exp (sr k - M) * vr k,
      Finset.mul_sum]
    simp only [← mul_assoc, hre]
  have hnorm : norm s = (L : EReal) := by
    unfold norm; rw [zero_add, hL, ← coe_sum]; exact Finset.sum_congr rfl fun k _ => hew k
  -- both sides as one real
  have htb : twoBlock s v = ((A * (1 / L) : ℝ) : EReal) := by
    unfold twoBlock; rw [hacc1, hl1, Ideal.div_coe hLne, ← EReal.coe_mul]
  have hop : onePass s v = ((∑ k : Fin 2048, Real.exp (sr k - M) * (1 / L) * vr k : ℝ) : EReal) := by
    unfold onePass; rw [← coe_sum]
    exact Finset.sum_congr rfl fun k _ => by
      rw [hnorm, hew k, hvr, Ideal.div_coe hLne, ← EReal.coe_mul, ← EReal.coe_mul]
  rw [htb, hop, hA, Finset.sum_mul]
  exact congrArg _ (Finset.sum_congr rfl fun k _ => by ring)

end Cert.Attention

end
-- ==== Proof.Joined.lean ====
/-
  The two forms joined at the level of the argument arrays. For real arrays Q, K, W, the two-block form on the
  scores scaled before the dot product equals the one-pass form on the scores scaled after it: the two scalings
  agree on reals, the scores are reals, and on real scores and values the two forms agree.
-/
import proofs.«163254_j31164282700439_2_alg».proof.Proof.SoftmaxLaw
import Idealize.ShloMosaic.Lib.ValueIdx

noncomputable section

namespace Cert.Attention

open Idealize.ShloMosaic Idealize.ShloMosaic.ValueIdx Cert.RealMath

/-- The scale word 0x3CB504F3 denotes a real number (a finite binary fraction). -/
theorem isReal_scale : IsReal (Ideal.ofBits .f32 0x3CB504F3#32) := by
  show IsReal (Ideal.ieee 8 23 (0x3CB504F3#32 : BitVec 32))
  unfold Ideal.ieee
  dsimp only
  rw [if_neg (by decide), if_neg (by decide)]
  exact ⟨_, rfl⟩

theorem joined (Q K W : (⟨4, ![2, 12, 2048, 64]⟩ : Shape).Idx → EReal)
    (hQ : ∀ i, IsReal (Q i)) (hK : ∀ i, IsReal (K i)) (hW : ∀ i, IsReal (W i))
    (b : Fin 2) (h : Fin 12) (r : Fin 2048) (d : Fin 64) :
    twoBlock (fun k => scoreBefore (fun dd => Q (ix4 b h r dd)) (fun dd => K (ix4 b h k dd)) (Ideal.ofBits .f32 0x3CB504F3#32))
        (fun k => W (ix4 b h k d))
      = onePass (fun k => scoreAfter (fun dd => Q (ix4 b h r dd)) (fun dd => K (ix4 b h k dd)) (Ideal.ofBits .f32 0x3CB504F3#32))
        (fun k => W (ix4 b h k d)) := by
  have hsc : (fun k : Fin 2048 => scoreBefore (fun dd => Q (ix4 b h r dd)) (fun dd => K (ix4 b h k dd))
        (Ideal.ofBits .f32 0x3CB504F3#32))
      = fun k => scoreAfter (fun dd => Q (ix4 b h r dd)) (fun dd => K (ix4 b h k dd)) (Ideal.ofBits .f32 0x3CB504F3#32) :=
    funext fun k => score_scale _ _ _ (fun dd => hQ _) (fun dd => hK _) isReal_scale
  rw [hsc]
  exact twoBlock_eq_onePass _ _
    (fun k => isReal_scoreAfter _ _ _ (fun dd => hQ _) (fun dd => hK _) isReal_scale) (fun k => hW _)

end Cert.Attention

end
-- ==== Proof.Claims.lean ====
/-
  The five claims. Both programs compute, for each of the 2 × 12 heads, softmax (c · Q Kᵀ) · V with the scale c the
  word 0x3CB504F3 (the nearest single-precision number to 1 / sqrt 2048, the same word in both programs).
  The kernel scales each query entry before the dot product, walks the 2048 keys in two blocks of 1024 with a running
  maximum, normaliser and numerator (the online softmax), and divides once at the end; the reference scales the dot
  products, takes the row maximum over all keys, exponentiates, normalises each weight and then sums the weighted value
  rows. On the extended reals these agree once every input entry is a real number — which the precondition says — because
  then every score, maximum, weight and sum is a real, exp (m0 - M) · exp (s - m0) = exp (s - M), and a positive real
  normaliser may be divided out of a finite sum. The arguments' two leading axes are merged before the grid and split after
  it, which only renames indices. The three frames are the generated ones (the reference's is its generated run with the
  result dropped); nothing was rewritten by the idealization, so there is nothing to preserve.
-/
import proofs.«163254_j31164282700439_2_alg».proof.Defs
import proofs.«163254_j31164282700439_2_alg».proof.Proof.KernelWhole
import proofs.«163254_j31164282700439_2_alg».proof.Proof.RefRow
import proofs.«163254_j31164282700439_2_alg».proof.Proof.FiniteInputs
import proofs.«163254_j31164282700439_2_alg».proof.Proof.Joined
import proofs.«163254_j31164282700439_2_alg».proof.Proof.Gen.Kernel.Frame
import proofs.«163254_j31164282700439_2_alg».proof.Proof.Gen.KernelIdeal.Frame
import proofs.«163254_j31164282700439_2_alg».proof.Proof.Gen.ReferenceIdeal.Run
import proofs.«163254_j31164282700439_2_alg».proof.Proof.Gen.ReferenceIdeal.Read

noncomputable section

open Idealize.ShloMosaic Idealize.ShloMosaic.TcCoe Idealize.ShloMosaic.ValueIdx Idealize.SL.Sem

namespace Cert.Proof.Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree and are real, entry (b, h, r, d) of the kernel's result is the two-block form on scores
    scaled before, the reference's the one-pass form on scores scaled after: equal. -/
theorem algebraic : Cert.algebraic_KernelIdeal_ReferenceIdeal := by
  intro m ρ m' ρ' hpre hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  obtain ⟨hQ, hK, hV⟩ := Cert.FiniteInputs.reals_of_pre _ _ _ (hpre c)
  funext i
  obtain ⟨b, h, r, d, rfl⟩ : ∃ (b : Fin 2) (h : Fin 12) (r : Fin 2048) (d : Fin 64), i = ix4 b h r d :=
    ⟨i 0, i 1, i 2, i 3, eq_ix4 i⟩
  rw [Cert.ReferenceIdeal.RefRow.ref_at]
  exact ((Cert.KernelIdeal.Whole.out_at m c b h r d).trans (Cert.Attention.joined _ _ _ hQ hK hV b h r d)).symm

end Cert.Proof.Claims

end
-- ==== Proof.lean ====
/- The proof of Cert.Claim: the kernel (an online-softmax attention over two key blocks per head) against its reference
   (softmax of the scaled scores, times the values), over the extended reals under finite inputs. The claims are proved in
   Proof/Claims.lean, over: Proof/Softmax.lean (both forms as mathematics), Proof/SoftmaxLaw.lean and Proof/Joined.lean
   (the law joining them on reals), Proof/KernelSteps.lean, Proof/KernelRow.lean and Proof/KernelWhole.lean (the kernel's
   result, entry by entry), Proof/RefRow.lean (the reference's), Proof/FiniteInputs.lean (the precondition gives reals).
   Here they are assembled behind the witnesses of the programs' stated facts. -/
import proofs.«163254_j31164282700439_2_alg».proof.Defs
import proofs.«163254_j31164282700439_2_alg».proof.Proof.Claims
import proofs.«163254_j31164282700439_2_alg».proof.Proof.Gen.Kernel
import proofs.«163254_j31164282700439_2_alg».proof.Proof.Gen.Kernel.Skeleton
import proofs.«163254_j31164282700439_2_alg».proof.Proof.Gen.Kernel.Launch
import proofs.«163254_j31164282700439_2_alg».proof.Proof.Gen.Kernel.Points
import proofs.«163254_j31164282700439_2_alg».proof.Proof.Gen.Kernel.Frame
import proofs.«163254_j31164282700439_2_alg».proof.Proof.Gen.KernelIdeal
import proofs.«163254_j31164282700439_2_alg».proof.Proof.Gen.KernelIdeal.Skeleton
import proofs.«163254_j31164282700439_2_alg».proof.Proof.Gen.KernelIdeal.Launch
import proofs.«163254_j31164282700439_2_alg».proof.Proof.Gen.KernelIdeal.Points
import proofs.«163254_j31164282700439_2_alg».proof.Proof.Gen.KernelIdeal.Frame
import proofs.«163254_j31164282700439_2_alg».proof.Proof.Gen.ReferenceIdeal
import proofs.«163254_j31164282700439_2_alg».proof.Proof.Gen.ReferenceIdeal.Run
import proofs.«163254_j31164282700439_2_alg».proof.Proof.Gen.ReferenceIdeal.Read
import proofs.«163254_j31164282700439_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
